-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x260 : Shape := ⟨2, ![65536, 260]⟩
abbrev S65536x100 : Shape := ⟨2, ![65536, 100]⟩
abbrev S100x50 : Shape := ⟨2, ![100, 50]⟩
abbrev S50 : Shape := ⟨1, ![50]⟩
abbrev S50x256 : Shape := ⟨2, ![50, 256]⟩
abbrev S256 : Shape := ⟨1, ![256]⟩
abbrev S256x400 : Shape := ⟨2, ![256, 400]⟩
abbrev S400 : Shape := ⟨1, ![400]⟩
abbrev S400x256 : Shape := ⟨2, ![400, 256]⟩
abbrev S256x256 : Shape := ⟨2, ![256, 256]⟩
abbrev S256x8 : Shape := ⟨2, ![256, 8]⟩
abbrev S8 : Shape := ⟨1, ![8]⟩
abbrev S_ : Shape := ⟨0, ![]⟩

class Facts : Prop where
  bcast_S_S65536x260 : S_.BroadcastsInDim S65536x260 (![] : Fin 0 → Fin S65536x260.rank)
  reducesTo_S65536x260_S_d0_1 : S65536x260.ReducesTo [0, 1] S_
  h_S_ : 0 < S_.numel
  bcast_S_S65536x100 : S_.BroadcastsInDim S65536x100 (![] : Fin 0 → Fin S65536x100.rank)
  reducesTo_S65536x100_S_d0_1 : S65536x100.ReducesTo [0, 1] S_
  bcast_S_S100x50 : S_.BroadcastsInDim S100x50 (![] : Fin 0 → Fin S100x50.rank)
  reducesTo_S100x50_S_d0_1 : S100x50.ReducesTo [0, 1] S_
  bcast_S_S50 : S_.BroadcastsInDim S50 (![] : Fin 0 → Fin S50.rank)
  reducesTo_S50_S_d0 : S50.ReducesTo [0] S_
  bcast_S_S50x256 : S_.BroadcastsInDim S50x256 (![] : Fin 0 → Fin S50x256.rank)
  reducesTo_S50x256_S_d0_1 : S50x256.ReducesTo [0, 1] S_
  bcast_S_S256 : S_.BroadcastsInDim S256 (![] : Fin 0 → Fin S256.rank)
  reducesTo_S256_S_d0 : S256.ReducesTo [0] S_
  bcast_S_S256x400 : S_.BroadcastsInDim S256x400 (![] : Fin 0 → Fin S256x400.rank)
  reducesTo_S256x400_S_d0_1 : S256x400.ReducesTo [0, 1] S_
  bcast_S_S400 : S_.BroadcastsInDim S400 (![] : Fin 0 → Fin S400.rank)
  reducesTo_S400_S_d0 : S400.ReducesTo [0] S_
  bcast_S_S400x256 : S_.BroadcastsInDim S400x256 (![] : Fin 0 → Fin S400x256.rank)
  reducesTo_S400x256_S_d0_1 : S400x256.ReducesTo [0, 1] S_
  bcast_S_S256x256 : S_.BroadcastsInDim S256x256 (![] : Fin 0 → Fin S256x256.rank)
  reducesTo_S256x256_S_d0_1 : S256x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x8 .f32) (main_arg13 : FVec F S8 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x8 .f32 := Host.absf main_arg12
  let main_cst_22 : FVec F S_ .f32 := constant S_ .f32 0x7F800000#32
  let main_v60 : FVec F S256x8 .f32 := broadcastInDim S256x8 ![] bcast_S_S256x8 main_cst_22
  let main_v61 : IVec S256x8 1 := cmpf .olt main_v59 main_v60
  let main_c_23 : IVec S_ 1 := constantI S_ 1 1#1
  let main_v62 : IVec S_ 1 := (fun x v => Host.reduce IntOp.andi x v reducesTo_S256x8_S_d0_1 h_S_) main_v61 main_c_23
  let main_v63 : IVec S_ 1 := andi main_v58 main_v62
  let main_v64 : FVec F S8 .f32 := Host.absf main_arg13
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_v63 main_v67

def fn_part2 {F : FTy → Type} [FloatOps F] (main_arg7 : FVec F S400 .f32) (main_arg8 : FVec F S400x256 .f32) (main_arg9 : FVec F S256 .f32) (main_arg10 : FVec F S256x256 .f32) (main_arg11 : FVec F S256 .f32) (main_arg12 : FVec F S256x8 .f32) (main_arg13 : FVec F S8 .f32) (main_v33 : IVec S_ 1) : IVec S_ 1 :=
  let main_v34 : FVec F S400 .f32 := Host.absf main_arg7
  let main_cst_12 : FVec F S_ .f32 := constant S_ .f32 0x7F800000#32
  let main_v35 : FVec F S400 .f32 := broadcastInDim S400 ![] bcast_S_S400 main_cst_12
  let main_v36 : IVec S400 1 := cmpf .olt main_v34 main_v35
  let main_c_13 : IVec S_ 1 := constantI S_ 1 1#1
  let main_v37 : IVec S_ 1 := (fun x v => Host.reduce IntOp.andi x v reducesTo_S400_S_d0 h_S_) main_v36 main_c_13
  let main_v38 : IVec S_ 1 := andi main_v33 main_v37
  let main_v39 : FVec F S400x256 .f32 := Host.absf main_arg8
  let main_cst_14 : FVec F S_ .f32 := constant S_ .f32 0x7F800000#32
  let main_v40 : FVec F S400x256 .f32 := broadcastInDim S400x256 ![] bcast_S_S400x256 main_cst_14
  let main_v41 : IVec S400x256 1 := cmpf .olt main_v39 main_v40
  let main_c_15 : IVec S_ 1 := constantI S_ 1 1#1
  let main_v42 : IVec S_ 1 := (fun x v => Host.reduce IntOp.andi x v reducesTo_S400x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_v48 main_v49 main_v50

def fn_part1 {F : FTy → Type} [FloatOps F] (main_arg4 : FVec F S50x256 .f32) (main_arg5 : FVec F S256 .f32) (main_arg6 : FVec F S256x400 .f32) (main_arg7 : FVec F S400 .f32) (main_arg8 : FVec F S400x256 .f32) (main_arg9 : FVec F S256 .f32) (main_arg10 : FVec F S256x256 .f32) (main_arg11 : FVec F S256 .f32) (main_arg12 : FVec F S256x8 .f32) (main_arg13 : FVec F S8 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S50x256 .f32 := Host.absf main_arg4
  let main_cst_6 : FVec F S_ .f32 := constant S_ .f32 0x7F800000#32
  let main_v20 : FVec F S50x256 .f32 := broadcastInDim S50x256 ![] bcast_S_S50x256 main_cst_6
  let main_v21 : IVec S50x256 1 := cmpf .olt main_v19 main_v20
  let main_c_7 : IVec S_ 1 := constantI S_ 1 1#1
  let main_v22 : IVec S_ 1 := (fun x v => Host.reduce IntOp.andi x v reducesTo_S50x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x400 .f32 := Host.absf main_arg6
  let main_cst_10 : FVec F S_ .f32 := constant S_ .f32 0x7F800000#32
  let main_v30 : FVec F S256x400 .f32 := broadcastInDim S256x400 ![] bcast_S_S256x400 main_cst_10
  let main_v31 : IVec S256x400 1 := cmpf .olt main_v29 main_v30
  let main_c_11 : IVec S_ 1 := constantI S_ 1 1#1
  let main_v32 : IVec S_ 1 := (fun x v => Host.reduce IntOp.andi x v reducesTo_S256x400_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x260 .f32) (main_arg1 : FVec F S65536x100 .f32) (main_arg2 : FVec F S100x50 .f32) (main_arg3 : FVec F S50 .f32) (main_arg4 : FVec F S50x256 .f32) (main_arg5 : FVec F S256 .f32) (main_arg6 : FVec F S256x400 .f32) (main_arg7 : FVec F S400 .f32) (main_arg8 : FVec F S400x256 .f32) (main_arg9 : FVec F S256 .f32) (main_arg10 : FVec F S256x256 .f32) (main_arg11 : FVec F S256 .f32) (main_arg12 : FVec F S256x8 .f32) (main_arg13 : FVec F S8 .f32) : IVec S_ 1 :=
  let main_v0 : FVec F S65536x260 .f32 := Host.absf main_arg0
  let main_cst : FVec F S_ .f32 := constant S_ .f32 0x7F800000#32
  let main_v1 : FVec F S65536x260 .f32 := broadcastInDim S65536x260 ![] bcast_S_S65536x260 main_cst
  let main_v2 : IVec S65536x260 1 := cmpf .olt main_v0 main_v1
  let main_c : IVec S_ 1 := constantI S_ 1 1#1
  let main_v3 : IVec S_ 1 := (fun x v => Host.reduce IntOp.andi x v reducesTo_S65536x260_S_d0_1 h_S_) main_v2 main_c
  let main_v4 : FVec F S65536x100 .f32 := Host.absf main_arg1
  let main_cst_0 : FVec F S_ .f32 := constant S_ .f32 0x7F800000#32
  let main_v5 : FVec F S65536x100 .f32 := broadcastInDim S65536x100 ![] bcast_S_S65536x100 main_cst_0
  let main_v6 : IVec S65536x100 1 := cmpf .olt main_v4 main_v5
  let main_c_1 : IVec S_ 1 := constantI S_ 1 1#1
  let main_v7 : IVec S_ 1 := (fun x v => Host.reduce IntOp.andi x v reducesTo_S65536x100_S_d0_1 h_S_) main_v6 main_c_1
  let main_v8 : IVec S_ 1 := andi main_v3 main_v7
  let main_v9 : FVec F S100x50 .f32 := Host.absf main_arg2
  let main_cst_2 : FVec F S_ .f32 := constant S_ .f32 0x7F800000#32
  let main_v10 : FVec F S100x50 .f32 := broadcastInDim S100x50 ![] bcast_S_S100x50 main_cst_2
  let main_v11 : IVec S100x50 1 := cmpf .olt main_v9 main_v10
  let main_c_3 : IVec S_ 1 := constantI S_ 1 1#1
  let main_v12 : IVec S_ 1 := (fun x v => Host.reduce IntOp.andi x v reducesTo_S100x50_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x260 : Shape := ⟨2, ![65536, 260]⟩
abbrev S65536x100 : Shape := ⟨2, ![65536, 100]⟩
abbrev S100x50 : Shape := ⟨2, ![100, 50]⟩
abbrev S50 : Shape := ⟨1, ![50]⟩
abbrev S50x256 : Shape := ⟨2, ![50, 256]⟩
abbrev S256 : Shape := ⟨1, ![256]⟩
abbrev S256x400 : Shape := ⟨2, ![256, 400]⟩
abbrev S400 : Shape := ⟨1, ![400]⟩
abbrev S400x256 : Shape := ⟨2, ![400, 256]⟩
abbrev S256x256 : Shape := ⟨2, ![256, 256]⟩
abbrev S256x8 : Shape := ⟨2, ![256, 8]⟩
abbrev S8 : Shape := ⟨1, ![8]⟩
abbrev S65536x8 : Shape := ⟨2, ![65536, 8]⟩
abbrev S1024x260 : Shape := ⟨2, ![1024, 260]⟩
abbrev S1024x100 : Shape := ⟨2, ![1024, 100]⟩
abbrev S1024x8 : Shape := ⟨2, ![1024, 8]⟩
abbrev S1x50 : Shape := ⟨2, ![1, 50]⟩
abbrev S1024x50 : Shape := ⟨2, ![1024, 50]⟩
abbrev S1024x20 : Shape := ⟨2, ![1024, 20]⟩
abbrev S1024x30 : Shape := ⟨2, ![1024, 30]⟩
abbrev S1024x10 : Shape := ⟨2, ![1024, 10]⟩
abbrev S20x256 : Shape := ⟨2, ![20, 256]⟩
abbrev S30x256 : Shape := ⟨2, ![30, 256]⟩
abbrev S1x256 : Shape := ⟨2, ![1, 256]⟩
abbrev S1024x256 : Shape := ⟨2, ![1024, 256]⟩
abbrev S1x400 : Shape := ⟨2, ![1, 400]⟩
abbrev S1024x400 : Shape := ⟨2, ![1024, 400]⟩
abbrev S1024x15 : Shape := ⟨2, ![1024, 15]⟩
abbrev S1x8 : Shape := ⟨2, ![1, 8]⟩

abbrev nBuf : Space → Nat
  | .hbm => 23
  | .vmem => 18
  | .smem => 0
  | _ => 0

abbrev bufTy : (tb : Table) → Fin (tcTables nBuf tb) → BufTy
  | .hbm, ⟨0, _⟩ => ⟨S65536x260, .f32⟩
  | .hbm, ⟨1, _⟩ => ⟨S65536x100, .f32⟩
  | .hbm, ⟨2, _⟩ => ⟨S100x50, .f32⟩
  | .hbm, ⟨3, _⟩ => ⟨S50, .f32⟩
  | .hbm, ⟨4, _⟩ => ⟨S50x256, .f32⟩
  | .hbm, ⟨5, _⟩ => ⟨S256, .f32⟩
  | .hbm, ⟨6, _⟩ => ⟨S256x400, .f32⟩
  | .hbm, ⟨7, _⟩ => ⟨S400, .f32⟩
  | .hbm, ⟨8, _⟩ => ⟨S400x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x8, .f32⟩
  | .hbm, ⟨13, _⟩ => ⟨S8, .f32⟩
  | .hbm, ⟨14, _⟩ => ⟨S65536x260, .bf16⟩
  | .hbm, ⟨15, _⟩ => ⟨S65536x100, .bf16⟩
  | .hbm, ⟨16, _⟩ => ⟨S100x50, .bf16⟩
  | .hbm, ⟨17, _⟩ => ⟨S50x256, .bf16⟩
  | .hbm, ⟨18, _⟩ => ⟨S256x400, .bf16⟩
  | .hbm, ⟨19, _⟩ => ⟨S400x256, .bf16⟩
  | .hbm, ⟨20, _⟩ => ⟨S256x256, .bf16⟩
  | .hbm, ⟨21, _⟩ => ⟨S256x8, .bf16⟩
  | .hbm, ⟨22, _⟩ => ⟨S65536x8, .f32⟩
  | .local _ .vmem, ⟨0, _⟩ => ⟨S1024x260, .bf16⟩
  | .local _ .vmem, ⟨1, _⟩ => ⟨S1024x260, .bf16⟩
  | .local _ .vmem, ⟨2, _⟩ => ⟨S1024x100, .bf16⟩
  | .local _ .vmem, ⟨3, _⟩ => ⟨S1024x100, .bf16⟩
  | .local _ .vmem, ⟨4, _⟩ => ⟨S100x50, .bf16⟩
  | .local _ .vmem, ⟨5, _⟩ => ⟨S50, .f32⟩
  | .local _ .vmem, ⟨6, _⟩ => ⟨S50x256, .bf16⟩
  | .local _ .vmem, ⟨7, _⟩ => ⟨S256, .f32⟩
  | .local _ .vmem, ⟨8, _⟩ => ⟨S256x400, .bf16⟩
  | .local _ .vmem, ⟨9, _⟩ => ⟨S400, .f32⟩
  | .local _ .vmem, ⟨10, _⟩ => ⟨S400x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S256x8, .bf16⟩
  | .local _ .vmem, ⟨15, _⟩ => ⟨S8, .f32⟩
  | .local _ .vmem, ⟨16, _⟩ => ⟨S1024x8, .f32⟩
  | .local _ .vmem, ⟨17, _⟩ => ⟨S1024x8, .f32⟩
  | _, _ => ⟨S65536x260, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x260 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x100 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x50 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x400 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x8 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  inb_S1024x260_S1024x260_0_0 : ∀ a, (![0, 0] : Fin 2 → Nat) a + S1024x260.size a ≤ S1024x260.size a
  h_S1024x260 : 0 < S1024x260.numel
  shapeCasts_S1024x260_S1024x260 : S1024x260.ShapeCasts S1024x260
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  inb_S100x50_S100x50_0_0 : ∀ a, (![0, 0] : Fin 2 → Nat) a + S100x50.size a ≤ S100x50.size a
  h_S100x50 : 0 < S100x50.numel
  shapeCasts_S100x50_S100x50 : S100x50.ShapeCasts S100x50
  inb_S50_S50_0 : ∀ a, (![0] : Fin 1 → Nat) a + S50.size a ≤ S50.size a
  h_S50 : 0 < S50.numel
  shapeCasts_S50_S1x50 : S50.ShapeCasts S1x50
  broadcasts_S1x50_S1024x50 : S1x50.Broadcasts S1024x50
  slices_S1024x50_o0_0_S1024x20 : S1024x50.Slices ![0, 0] S1024x20
  slices_S1024x50_o0_20_S1024x30 : S1024x50.Slices ![0, 20] S1024x30
  slices_S1024x260_o0_0_S1024x10 : S1024x260.Slices ![0, 0] S1024x10
  slices_S1024x260_o0_130_S1024x10 : S1024x260.Slices ![0, 130] S1024x10
  concatenates_S1024x10_S1024x10_S1024x20_d1 : Shape.Concatenates [S1024x10, S1024x10] S1024x20 1
  inb_S50x256_S50x256_0_0 : ∀ a, (![0, 0] : Fin 2 → Nat) a + S50x256.size a ≤ S50x256.size a
  h_S50x256 : 0 < S50x256.numel
  shapeCasts_S50x256_S50x256 : S50x256.ShapeCasts S50x256
  slices_S50x256_o0_0_S20x256 : S50x256.Slices ![0, 0] S20x256
  slices_S50x256_o20_0_S30x256 : S50x256.Slices ![20, 0] S30x256
  inb_S256_S256_0 : ∀ a, (![0] : Fin 1 → Nat) a + S256.size a ≤ S256.size a
  h_S256 : 0 < S256.numel
  shapeCasts_S256_S1x256 : S256.ShapeCasts S1x256
  inb_S256x400_S256x400_0_0 : ∀ a, (![0, 0] : Fin 2 → Nat) a + S256x400.size a ≤ S256x400.size a
  h_S256x400 : 0 < S256x400.numel
  shapeCasts_S256x400_S256x400 : S256x400.ShapeCasts S256x400
  inb_S400_S400_0 : ∀ a, (![0] : Fin 1 → Nat) a + S400.size a ≤ S400.size a
  h_S400 : 0 < S400.numel
  shapeCasts_S400_S1x400 : S400.ShapeCasts S1x400
  slices_S1024x260_o0_10_S1024x15 : S1024x260.Slices ![0, 10] S1024x15
  slices_S1024x260_o0_140_S1024x15 : S1024x260.Slices ![0, 140] S1024x15
  concatenates_S1024x15_S1024x15_S1024x30_d1 : Shape.Concatenates [S1024x15, S1024x15] S1024x30 1
  broadcasts_S1x256_S1024x256 : S1x256.Broadcasts S1024x256
  broadcasts_S1x400_S1024x400 : S1x400.Broadcasts S1024x400
  slices_S1024x260_o0_25_S1024x15 : S1024x260.Slices ![0, 25] S1024x15
  slices_S1024x260_o0_155_S1024x15 : S1024x260.Slices ![0, 155] S1024x15
  slices_S1024x260_o0_40_S1024x15 : S1024x260.Slices ![0, 40] S1024x15
  slices_S1024x260_o0_170_S1024x15 : S1024x260.Slices ![0, 170] S1024x15
  slices_S1024x260_o0_55_S1024x15 : S1024x260.Slices ![0, 55] S1024x15
  slices_S1024x260_o0_185_S1024x15 : S1024x260.Slices ![0, 185] S1024x15
  slices_S1024x260_o0_70_S1024x15 : S1024x260.Slices ![0, 70] S1024x15
  slices_S1024x260_o0_200_S1024x15 : S1024x260.Slices ![0, 200] S1024x15
  slices_S1024x260_o0_85_S1024x15 : S1024x260.Slices ![0, 85] S1024x15
  slices_S1024x260_o0_215_S1024x15 : S1024x260.Slices ![0, 215] S1024x15
  slices_S1024x260_o0_100_S1024x15 : S1024x260.Slices ![0, 100] S1024x15
  slices_S1024x260_o0_230_S1024x15 : S1024x260.Slices ![0, 230] S1024x15
  slices_S1024x260_o0_115_S1024x15 : S1024x260.Slices ![0, 115] S1024x15
  slices_S1024x260_o0_245_S1024x15 : S1024x260.Slices ![0, 245] S1024x15
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S1024x8_S1024x8_0_0 : ∀ a, (![0, 0] : Fin 2 → Nat) a + S1024x8.size a ≤ S1024x8.size a
  h_S1024x8 : 0 < S1024x8.numel
  dot_S1024x100_S100x50_S1024x50_1_0_0_1_n_n_wf : DotDims.WF S1024x100 S100x50 S1024x50 [1] [0] [0] [1] [] []
  dot_S1024x20_S20x256_S1024x256_1_0_0_1_n_n_wf : DotDims.WF S1024x20 S20x256 S1024x256 [1] [0] [0] [1] [] []
  dot_S1024x30_S30x256_S1024x256_1_0_0_1_n_n_wf : DotDims.WF S1024x30 S30x256 S1024x256 [1] [0] [0] [1] [] []
  dot_S1024x256_S256x400_S1024x400_1_0_0_1_n_n_wf : DotDims.WF S1024x256 S256x400 S1024x400 [1] [0] [0] [1] [] []
  dot_S1024x400_S400x256_S1024x256_1_0_0_1_n_n_wf : DotDims.WF S1024x400 S400x256 S1024x256 [1] [0] [0] [1] [] []
  dot_S1024x256_S256x256_S1024x256_1_0_0_1_n_n_wf : DotDims.WF S1024x256 S256x256 S1024x256 [1] [0] [0] [1] [] []
  dot_S1024x256_S256x8_S1024x8_1_0_0_1_n_n_wf : DotDims.WF S1024x256 S256x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x260.size a ≤ S65536x260.size a
  hwx0_0 : ∀ i : grid0.Coords, EltTy.bits .bf16 = 32 ∨ (Rect.block (s := S65536x260) S1024x260.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x100.size a ≤ S65536x100.size a
  hwx0_1 : ∀ i : grid0.Coords, EltTy.bits .bf16 = 32 ∨ (Rect.block (s := S65536x100) S1024x100.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x50.size a ≤ S100x50.size a
  hwx0_2 : ∀ i : grid0.Coords, EltTy.bits .bf16 = 32 ∨ (Rect.block (s := S100x50) S100x50.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50.size a ≤ S50.size a
  hwx0_3 : ∀ i : grid0.Coords, EltTy.bits .f32 = 32 ∨ (Rect.block (s := S50) S50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x256.size a ≤ S50x256.size a
  hwx0_4 : ∀ i : grid0.Coords, EltTy.bits .bf16 = 32 ∨ (Rect.block (s := S50x256) S50x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x400.size a ≤ S256x400.size a
  hwx0_6 : ∀ i : grid0.Coords, EltTy.bits .bf16 = 32 ∨ (Rect.block (s := S256x400) S256x400.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400.size a ≤ S400.size a
  hwx0_7 : ∀ i : grid0.Coords, EltTy.bits .f32 = 32 ∨ (Rect.block (s := S400) S400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400x256.size a ≤ S400x256.size a
  hwx0_8 : ∀ i : grid0.Coords, EltTy.bits .bf16 = 32 ∨ (Rect.block (s := S400x256) S400x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x8.size a ≤ S256x8.size a
  hwx0_12 : ∀ i : grid0.Coords, EltTy.bits .bf16 = 32 ∨ (Rect.block (s := S256x8) S256x8.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8.size a ≤ S8.size a
  hwx0_13 : ∀ i : grid0.Coords, EltTy.bits .f32 = 32 ∨ (Rect.block (s := S8) S8.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x8.size a ≤ S65536x8.size a
  hwx0_14 : ∀ i : grid0.Coords, EltTy.bits .f32 = 32 ∨ (Rect.block (s := S65536x8) S1024x8.size (cc0_transform_14 i) (hinb0_14 i)).WholeWords (EltTy.packing .f32)

variable [Facts₀]

def dot_S1024x100_S100x50_S1024x50_1_0_0_1_n_n : DotDims S1024x100 S100x50 S1024x50 where
  lhsContracting := [1]
  rhsContracting := [0]
  lhsNonContracting := [0]
  rhsNonContracting := [1]
  lhsBatch := []
  rhsBatch := []
  wf := dot_S1024x100_S100x50_S1024x50_1_0_0_1_n_n_wf
def dot_S1024x20_S20x256_S1024x256_1_0_0_1_n_n : DotDims S1024x20 S20x256 S1024x256 where
  lhsContracting := [1]
  rhsContracting := [0]
  lhsNonContracting := [0]
  rhsNonContracting := [1]
  lhsBatch := []
  rhsBatch := []
  wf := dot_S1024x20_S20x256_S1024x256_1_0_0_1_n_n_wf
def dot_S1024x30_S30x256_S1024x256_1_0_0_1_n_n : DotDims S1024x30 S30x256 S1024x256 where
  lhsContracting := [1]
  rhsContracting := [0]
  lhsNonContracting := [0]
  rhsNonContracting := [1]
  lhsBatch := []
  rhsBatch := []
  wf := dot_S1024x30_S30x256_S1024x256_1_0_0_1_n_n_wf
def dot_S1024x256_S256x400_S1024x400_1_0_0_1_n_n : DotDims S1024x256 S256x400 S1024x400 where
  lhsContracting := [1]
  rhsContracting := [0]
  lhsNonContracting := [0]
  rhsNonContracting := [1]
  lhsBatch := []
  rhsBatch := []
  wf := dot_S1024x256_S256x400_S1024x400_1_0_0_1_n_n_wf
def dot_S1024x400_S400x256_S1024x256_1_0_0_1_n_n : DotDims S1024x400 S400x256 S1024x256 where
  lhsContracting := [1]
  rhsContracting := [0]
  lhsNonContracting := [0]
  rhsNonContracting := [1]
  lhsBatch := []
  rhsBatch := []
  wf := dot_S1024x400_S400x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x8_S1024x8_1_0_0_1_n_n : DotDims S1024x256 S256x8 S1024x8 where
  lhsContracting := [1]
  rhsContracting := [0]
  lhsNonContracting := [0]
  rhsNonContracting := [1]
  lhsBatch := []
  rhsBatch := []
  wf := dot_S1024x256_S256x8_S1024x8_1_0_0_1_n_n_wf

abbrev win0_0 : Pipeline.Window sig grid0 :=
  Pipeline.Window.ofSpec (Memref.whole main_v0) S1024x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S100x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S50x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S400x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S256x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v8) S1024x8.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x260 : Shape := ⟨2, ![65536, 260]⟩
abbrev S65536x100 : Shape := ⟨2, ![65536, 100]⟩
abbrev S100x50 : Shape := ⟨2, ![100, 50]⟩
abbrev S50 : Shape := ⟨1, ![50]⟩
abbrev S50x256 : Shape := ⟨2, ![50, 256]⟩
abbrev S256 : Shape := ⟨1, ![256]⟩
abbrev S256x400 : Shape := ⟨2, ![256, 400]⟩
abbrev S400 : Shape := ⟨1, ![400]⟩
abbrev S400x256 : Shape := ⟨2, ![400, 256]⟩
abbrev S256x256 : Shape := ⟨2, ![256, 256]⟩
abbrev S256x8 : Shape := ⟨2, ![256, 8]⟩
abbrev S8 : Shape := ⟨1, ![8]⟩
abbrev S8x30 : Shape := ⟨2, ![8, 30]⟩
abbrev S65536x50 : Shape := ⟨2, ![65536, 50]⟩
abbrev S1x50 : Shape := ⟨2, ![1, 50]⟩
abbrev S_ : Shape := ⟨0, ![]⟩
abbrev S65536x10 : Shape := ⟨2, ![65536, 10]⟩
abbrev S65536x20 : Shape := ⟨2, ![65536, 20]⟩
abbrev S8x30x1 : Shape := ⟨3, ![8, 30, 1]⟩
abbrev S65536x8x30 : Shape := ⟨3, ![65536, 8, 30]⟩
abbrev S65536x1x20 : Shape := ⟨3, ![65536, 1, 20]⟩
abbrev S65536x8x20 : Shape := ⟨3, ![65536, 8, 20]⟩
abbrev S65536x8x50 : Shape := ⟨3, ![65536, 8, 50]⟩
abbrev S65536x1x50 : Shape := ⟨3, ![65536, 1, 50]⟩
abbrev S65536x8x256 : Shape := ⟨3, ![65536, 8, 256]⟩
abbrev S1x1x256 : Shape := ⟨3, ![1, 1, 256]⟩
abbrev S65536x8x400 : Shape := ⟨3, ![65536, 8, 400]⟩
abbrev S1x1x400 : Shape := ⟨3, ![1, 1, 400]⟩
abbrev S65536x400 : Shape := ⟨2, ![65536, 400]⟩
abbrev S65536x256 : Shape := ⟨2, ![65536, 256]⟩
abbrev S1x256 : Shape := ⟨2, ![1, 256]⟩
abbrev S65536x8 : Shape := ⟨2, ![65536, 8]⟩
abbrev S1x8 : Shape := ⟨2, ![1, 8]⟩

abbrev nBuf : Space → Nat
  | .hbm => 80
  | .vmem => 0
  | .smem => 0
  | _ => 0

abbrev bufTy : (tb : Table) → Fin (tcTables nBuf tb) → BufTy
  | .hbm, ⟨0, _⟩ => ⟨S65536x260, .f32⟩
  | .hbm, ⟨1, _⟩ => ⟨S65536x100, .f32⟩
  | .hbm, ⟨2, _⟩ => ⟨S100x50, .f32⟩
  | .hbm, ⟨3, _⟩ => ⟨S50, .f32⟩
  | .hbm, ⟨4, _⟩ => ⟨S50x256, .f32⟩
  | .hbm, ⟨5, _⟩ => ⟨S256, .f32⟩
  | .hbm, ⟨6, _⟩ => ⟨S256x400, .f32⟩
  | .hbm, ⟨7, _⟩ => ⟨S400, .f32⟩
  | .hbm, ⟨8, _⟩ => ⟨S400x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x8, .f32⟩
  | .hbm, ⟨13, _⟩ => ⟨S8, .f32⟩
  | .hbm, ⟨14, _⟩ => ⟨S8x30, .i32⟩
  | .hbm, ⟨15, _⟩ => ⟨S65536x50, .f32⟩
  | .hbm, ⟨16, _⟩ => ⟨S1x50, .f32⟩
  | .hbm, ⟨17, _⟩ => ⟨S65536x50, .f32⟩
  | .hbm, ⟨18, _⟩ => ⟨S65536x50, .f32⟩
  | .hbm, ⟨19, _⟩ => ⟨S65536x50, .f32⟩
  | .hbm, ⟨20, _⟩ => ⟨S65536x50, .f32⟩
  | .hbm, ⟨21, _⟩ => ⟨S_, .f32⟩
  | .hbm, ⟨22, _⟩ => ⟨S65536x50, .f32⟩
  | .hbm, ⟨23, _⟩ => ⟨S65536x50, .f32⟩
  | .hbm, ⟨24, _⟩ => ⟨S_, .f32⟩
  | .hbm, ⟨25, _⟩ => ⟨S65536x50, .f32⟩
  | .hbm, ⟨26, _⟩ => ⟨S65536x50, .f32⟩
  | .hbm, ⟨27, _⟩ => ⟨S65536x10, .f32⟩
  | .hbm, ⟨28, _⟩ => ⟨S65536x10, .f32⟩
  | .hbm, ⟨29, _⟩ => ⟨S65536x20, .f32⟩
  | .hbm, ⟨30, _⟩ => ⟨S_, .i32⟩
  | .hbm, ⟨31, _⟩ => ⟨S8x30, .i32⟩
  | .hbm, ⟨32, _⟩ => ⟨S8x30, .i1⟩
  | .hbm, ⟨33, _⟩ => ⟨S_, .i32⟩
  | .hbm, ⟨34, _⟩ => ⟨S8x30, .i32⟩
  | .hbm, ⟨35, _⟩ => ⟨S8x30, .i32⟩
  | .hbm, ⟨36, _⟩ => ⟨S8x30, .i32⟩
  | .hbm, ⟨37, _⟩ => ⟨S8x30x1, .i32⟩
  | .hbm, ⟨38, _⟩ => ⟨S65536x8x30, .f32⟩
  | .hbm, ⟨39, _⟩ => ⟨S65536x1x20, .f32⟩
  | .hbm, ⟨40, _⟩ => ⟨S65536x8x20, .f32⟩
  | .hbm, ⟨41, _⟩ => ⟨S65536x8x50, .f32⟩
  | .hbm, ⟨42, _⟩ => ⟨S65536x1x50, .f32⟩
  | .hbm, ⟨43, _⟩ => ⟨S65536x8x50, .f32⟩
  | .hbm, ⟨44, _⟩ => ⟨S65536x8x50, .f32⟩
  | .hbm, ⟨45, _⟩ => ⟨S65536x8x256, .f32⟩
  | .hbm, ⟨46, _⟩ => ⟨S1x1x256, .f32⟩
  | .hbm, ⟨47, _⟩ => ⟨S65536x8x256, .f32⟩
  | .hbm, ⟨48, _⟩ => ⟨S65536x8x256, .f32⟩
  | .hbm, ⟨49, _⟩ => ⟨S_, .f32⟩
  | .hbm, ⟨50, _⟩ => ⟨S65536x8x256, .f32⟩
  | .hbm, ⟨51, _⟩ => ⟨S65536x8x256, .f32⟩
  | .hbm, ⟨52, _⟩ => ⟨S65536x8x400, .f32⟩
  | .hbm, ⟨53, _⟩ => ⟨S1x1x400, .f32⟩
  | .hbm, ⟨54, _⟩ => ⟨S65536x8x400, .f32⟩
  | .hbm, ⟨55, _⟩ => ⟨S65536x8x400, .f32⟩
  | .hbm, ⟨56, _⟩ => ⟨S_, .f32⟩
  | .hbm, ⟨57, _⟩ => ⟨S65536x8x400, .f32⟩
  | .hbm, ⟨58, _⟩ => ⟨S65536x8x400, .f32⟩
  | .hbm, ⟨59, _⟩ => ⟨S_, .f32⟩
  | .hbm, ⟨60, _⟩ => ⟨S65536x400, .f32⟩
  | .hbm, ⟨61, _⟩ => ⟨S65536x256, .f32⟩
  | .hbm, ⟨62, _⟩ => ⟨S1x256, .f32⟩
  | .hbm, ⟨63, _⟩ => ⟨S65536x256, .f32⟩
  | .hbm, ⟨64, _⟩ => ⟨S65536x256, .f32⟩
  | .hbm, ⟨65, _⟩ => ⟨S_, .f32⟩
  | .hbm, ⟨66, _⟩ => ⟨S65536x256, .f32⟩
  | .hbm, ⟨67, _⟩ => ⟨S65536x256, .f32⟩
  | .hbm, ⟨68, _⟩ => ⟨S65536x256, .f32⟩
  | .hbm, ⟨69, _⟩ => ⟨S1x256, .f32⟩
  | .hbm, ⟨70, _⟩ => ⟨S65536x256, .f32⟩
  | .hbm, ⟨71, _⟩ => ⟨S65536x256, .f32⟩
  | .hbm, ⟨72, _⟩ => ⟨S_, .f32⟩
  | .hbm, ⟨73, _⟩ => ⟨S65536x256, .f32⟩
  | .hbm, ⟨74, _⟩ => ⟨S65536x256, .f32⟩
  | .hbm, ⟨75, _⟩ => ⟨S65536x8, .f32⟩
  | .hbm, ⟨76, _⟩ => ⟨S1x8, .f32⟩
  | .hbm, ⟨77, _⟩ => ⟨S65536x8, .f32⟩
  | .hbm, ⟨78, _⟩ => ⟨S65536x8, .f32⟩
  | .hbm, ⟨79, _⟩ => ⟨S65536x8, .f32⟩
  | _, _ => ⟨S65536x260, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call2_cst : Ref sig .tc := ⟨.hbm, 65, rfl⟩
abbrev main_call2_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call3_cst : Ref sig .tc := ⟨.hbm, 72, rfl⟩
abbrev main_call3_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S1x50_S65536x50_0_1 : S1x50.BroadcastsInDim S65536x50 (![0, 1] : Fin 2 → Fin S65536x50.rank)
  bcast_S_S65536x50 : S_.BroadcastsInDim S65536x50 (![] : Fin 0 → Fin S65536x50.rank)
  slices_S65536x260_S65536x10_0_0 : S65536x260.Slices ![0, 0] S65536x10
  slices_S65536x260_S65536x10_0_130 : S65536x260.Slices ![0, 130] S65536x10
  concatenates_S65536x10_S65536x10_S65536x20_d1 : Shape.Concatenates [S65536x10, S65536x10] S65536x20 1
  bcast_S_S8x30 : S_.BroadcastsInDim S8x30 (![] : Fin 0 → Fin S8x30.rank)
  bcast_S8x30_S8x30x1_0_1 : S8x30.BroadcastsInDim S8x30x1 (![0, 1] : Fin 2 → Fin S8x30x1.rank)
  bcast_S65536x20_S65536x1x20_0_2 : S65536x20.BroadcastsInDim S65536x1x20 (![0, 2] : Fin 2 → Fin S65536x1x20.rank)
  bcast_S65536x1x20_S65536x8x20_0_1_2 : S65536x1x20.BroadcastsInDim S65536x8x20 (![0, 1, 2] : Fin 3 → Fin S65536x8x20.rank)
  concatenates_S65536x8x20_S65536x8x30_S65536x8x50_d2 : Shape.Concatenates [S65536x8x20, S65536x8x30] S65536x8x50 2
  bcast_S65536x50_S65536x1x50_0_2 : S65536x50.BroadcastsInDim S65536x1x50 (![0, 2] : Fin 2 → Fin S65536x1x50.rank)
  bcast_S65536x1x50_S65536x8x50_0_1_2 : S65536x1x50.BroadcastsInDim S65536x8x50 (![0, 1, 2] : Fin 3 → Fin S65536x8x50.rank)
  bcast_S256_S1x1x256_2 : S256.BroadcastsInDim S1x1x256 (![2] : Fin 1 → Fin S1x1x256.rank)
  bcast_S1x1x256_S65536x8x256_0_1_2 : S1x1x256.BroadcastsInDim S65536x8x256 (![0, 1, 2] : Fin 3 → Fin S65536x8x256.rank)
  bcast_S_S65536x8x256 : S_.BroadcastsInDim S65536x8x256 (![] : Fin 0 → Fin S65536x8x256.rank)
  bcast_S400_S1x1x400_2 : S400.BroadcastsInDim S1x1x400 (![2] : Fin 1 → Fin S1x1x400.rank)
  bcast_S1x1x400_S65536x8x400_0_1_2 : S1x1x400.BroadcastsInDim S65536x8x400 (![0, 1, 2] : Fin 3 → Fin S65536x8x400.rank)
  bcast_S_S65536x8x400 : S_.BroadcastsInDim S65536x8x400 (![] : Fin 0 → Fin S65536x8x400.rank)
  reducesTo_S65536x8x400_S65536x400_d1 : S65536x8x400.ReducesTo [1] S65536x400
  h_S_ : 0 < S_.numel
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  dot_S65536x100_S100x50_S65536x50_1_0_0_1_n_n_wf : DotDims.WF S65536x100 S100x50 S65536x50 [1] [0] [0] [1] [] []
  gather_S65536x260_S8x30x1_S65536x8x30_0_1_n_n_1_2_655361_wf : GatherDims.WF S65536x260 S8x30x1 S65536x8x30 [0] [1] [] [1] [] 2 ![65536, 1]
  dot_S65536x8x50_S50x256_S65536x8x256_2_0_01_1_n_n_wf : DotDims.WF S65536x8x50 S50x256 S65536x8x256 [2] [0] [0, 1] [1] [] []
  dot_S65536x8x256_S256x400_S65536x8x400_2_0_01_1_n_n_wf : DotDims.WF S65536x8x256 S256x400 S65536x8x400 [2] [0] [0, 1] [1] [] []
  dot_S65536x400_S400x256_S65536x256_1_0_0_1_n_n_wf : DotDims.WF S65536x400 S400x256 S65536x256 [1] [0] [0] [1] [] []
  dot_S65536x256_S256x256_S65536x256_1_0_0_1_n_n_wf : DotDims.WF S65536x256 S256x256 S65536x256 [1] [0] [0] [1] [] []
  dot_S65536x256_S256x8_S65536x8_1_0_0_1_n_n_wf : DotDims.WF S65536x256 S256x8 S65536x8 [1] [0] [0] [1] [] []

variable [Facts₀]

def dot_S65536x100_S100x50_S65536x50_1_0_0_1_n_n : DotDims S65536x100 S100x50 S65536x50 where
  lhsContracting := [1]
  rhsContracting := [0]
  lhsNonContracting := [0]
  rhsNonContracting := [1]
  lhsBatch := []
  rhsBatch := []
  wf := dot_S65536x100_S100x50_S65536x50_1_0_0_1_n_n_wf
def gather_S65536x260_S8x30x1_S65536x8x30_0_1_n_n_1_2_655361 : GatherDims S65536x260 S8x30x1 S65536x8x30 where
  offsetDims := [0]
  collapsedSliceDims := [1]
  operandBatchingDims := []
  startIndicesBatchingDims := []
  startIndexMap := [1]
  indexVectorDim := 2
  sliceSizes := ![65536, 1]
  wf := gather_S65536x260_S8x30x1_S65536x8x30_0_1_n_n_1_2_655361_wf
def dot_S65536x8x50_S50x256_S65536x8x256_2_0_01_1_n_n : DotDims S65536x8x50 S50x256 S65536x8x256 where
  lhsContracting := [2]
  rhsContracting := [0]
  lhsNonContracting := [0, 1]
  rhsNonContracting := [1]
  lhsBatch := []
  rhsBatch := []
  wf := dot_S65536x8x50_S50x256_S65536x8x256_2_0_01_1_n_n_wf
def dot_S65536x8x256_S256x400_S65536x8x400_2_0_01_1_n_n : DotDims S65536x8x256 S256x400 S65536x8x400 where
  lhsContracting := [2]
  rhsContracting := [0]
  lhsNonContracting := [0, 1]
  rhsNonContracting := [1]
  lhsBatch := []
  rhsBatch := []
  wf := dot_S65536x8x256_S256x400_S65536x8x400_2_0_01_1_n_n_wf
def dot_S65536x400_S400x256_S65536x256_1_0_0_1_n_n : DotDims S65536x400 S400x256 S65536x256 where
  lhsContracting := [1]
  rhsContracting := [0]
  lhsNonContracting := [0]
  rhsNonContracting := [1]
  lhsBatch := []
  rhsBatch := []
  wf := dot_S65536x400_S400x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x8_S65536x8_1_0_0_1_n_n : DotDims S65536x256 S256x8 S65536x8 where
  lhsContracting := [1]
  rhsContracting := [0]
  lhsNonContracting := [0]
  rhsNonContracting := [1]
  lhsBatch := []
  rhsBatch := []
  wf := dot_S65536x256_S256x8_S65536x8_1_0_0_1_n_n_wf

class Facts : Prop extends Facts₀ where

variable [Facts]
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibDenseRows.lean ====
/-
  Rows of dense layers read at an entry: a block of consecutive columns (or rows) of a matrix, two matrices set side
  by side along the columns, and a bias vector laid out as a row and repeated down the rows.

  For a matrix `x` with `n` columns, the block of `k` columns starting at column `c0` holds at `(r, e)` the entry
  `x (r, c0 + e)`; the block of `k` rows starting at row `r0` holds at `(e, c)` the entry `x (r0 + e, c)`. Two matrices
  with `k1` and `k2` columns set side by side hold at `(r, e)` the left one's `(r, e)` when `e < k1` and the right one's
  `(r, e - k1)` otherwise. A vector `v` of length `b` viewed as a `1 × b` row and repeated over `a` rows holds `v c` at
  `(r, c)`.
-/
import Idealize.ShloMosaic.Lib.ValueIdx
import Idealize.ShloMosaic.Lib.Pipeline.Value
import Idealize.ShloMosaic.Lib.ValueLayout

noncomputable section

namespace Cert.DenseRows

open Idealize.ShloMosaic Idealize.ShloMosaic.ValueIdx

variable {α : Type}

/-- A block of consecutive columns at an entry. -/
theorem sliceCols_apply {a n k : ℕ} (c0 : ℕ) (x : (⟨2, ![a, n]⟩ : Shape).Idx → α)
    (h : (⟨2, ![a, n]⟩ : Shape).Slices ![0, c0] ⟨2, ![a, k]⟩) (r : Fin a) (e : Fin k) (hb : c0 + e.val < n) :
    extractStridedSlice ⟨2, ![a, k]⟩ ![0, c0] x h (ix2 r e) = x (ix2 r ⟨c0 + e.val, hb⟩) :=
  extractStridedSlice_apply _ x h _ _ (fun ax => by
    match ax with
    | ⟨0, _⟩ => show r.val = 0 + r.val; omega
    | ⟨1, _⟩ => rfl)

/-- A block of consecutive rows at an entry. -/
theorem sliceRows_apply {n b k : ℕ} (r0 : ℕ) (x : (⟨2, ![n, b]⟩ : Shape).Idx → α)
    (h : (⟨2, ![n, b]⟩ : Shape).Slices ![r0, 0] ⟨2, ![k, b]⟩) (e : Fin k) (c : Fin b) (hb : r0 + e.val < n) :
    extractStridedSlice ⟨2, ![k, b]⟩ ![r0, 0] x h (ix2 e c) = x (ix2 ⟨r0 + e.val, hb⟩ c) :=
  extractStridedSlice_apply _ x h _ _ (fun ax => by
    match ax with
    | ⟨0, _⟩ => rfl
    | ⟨1, _⟩ => show c.val = 0 + c.val; omega)

/-- Two matrices side by side, at an entry of the left one. -/
theorem concatCols_left {a k1 k2 k : ℕ} (x₁ : (⟨2, ![a, k1]⟩ : Shape).Idx → α) (x₂ : (⟨2, ![a, k2]⟩ : Shape).Idx → α)
    (h : Shape.Concatenates [(⟨2, ![a, k1]⟩ : Shape), (⟨2, ![a, k2]⟩ : Shape)] (⟨2, ![a, k]⟩ : Shape) 1)
    (r : Fin a) (e : Fin k) (he : e.val < k1) :
    concatenate (⟨2, ![a, k]⟩ : Shape) 1 [⟨(⟨2, ![a, k1]⟩ : Shape), x₁⟩, ⟨(⟨2, ![a, k2]⟩ : Shape), x₂⟩] h (ix2 r e)
      = x₁ (ix2 r ⟨e.val, he⟩) :=
  concatenate_pair_apply_left 1 x₁ x₂ h (ix2 r e) rfl (ix2 r ⟨e.val, he⟩) (fun b => by
    match b with
    | ⟨0, _⟩ => rfl
    | ⟨1, _⟩ => rfl)

/-- Two matrices side by side, at an entry of the right one. -/
theorem concatCols_right {a k1 k2 k : ℕ} (x₁ : (⟨2, ![a, k1]⟩ : Shape).Idx → α) (x₂ : (⟨2, ![a, k2]⟩ : Shape).Idx → α)
    (h : Shape.Concatenates [(⟨2, ![a, k1]⟩ : Shape), (⟨2, ![a, k2]⟩ : Shape)] (⟨2, ![a, k]⟩ : Shape) 1)
    (r : Fin a) (e : Fin k) (he : k1 ≤ e.val) (hb : e.val - k1 < k2) :
    concatenate (⟨2, ![a, k]⟩ : Shape) 1 [⟨(⟨2, ![a, k1]⟩ : Shape), x₁⟩, ⟨(⟨2, ![a, k2]⟩ : Shape), x₂⟩] h (ix2 r e)
      = x₂ (ix2 r ⟨e.val - k1, hb⟩) :=
  concatenate_pair_apply_right 1 x₁ x₂ h (ix2 r e) rfl rfl (ix2 r ⟨e.val - k1, hb⟩) (fun b hne => by
    match b with
    | ⟨0, _⟩ => rfl
    | ⟨1, _⟩ => exact absurd rfl hne) (by show (e.val - k1) + k1 = e.val; omega)

/-- A bias vector as a row, repeated down the rows, at an entry. -/
theorem biasRow_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (r : Fin a) (c : Fin b) :
    broadcastTo ⟨2, ![a, b]⟩ (shapeCast ⟨2, ![1, b]⟩ v h1) h2 (ix2 r c) = v (ix1 c) := by
  rw [broadcastTo_1b_ab_apply, shapeCast_a_1a_apply]

end Cert.DenseRows

end
-- ==== Proof.Spec.lean ====
/-
  The network both programs compute, one batch row at a time, on the extended reals.

  A row of observations `o` (260 columns) holds a body part (columns 0..9 and 130..139) and eight objects; object `n`
  owns columns 10+15n .. 24+15n and 140+15n .. 154+15n. A row of goals `g` (100 columns) gives a gate of 50 logistic
  values. For each object the 50 gated features (20 of the body, 30 of the object) go through two dense layers with
  rectification; the eight results are added, and three more dense layers (the last one through tanh) give 8 outputs.

  Two arrangements are stated. In the first the first layer contracts all 50 gated features at once and the eight
  objects are added by one sum started from a given value. In the second the first layer is the sum of a contraction
  over the 20 body features and one over the 30 object features, and the objects are added one after the other to the
  starting value. They agree because addition of extended reals is commutative and associative: a sum over 50 positions
  splits into its first 20 and last 30, and a left-nested sum of eight terms is the sum of the eight. No distributivity
  or cancellation is used, so no finiteness is needed.
-/
import Idealize.ShloMosaic.PureOps.Ideal
import Mathlib.Algebra.BigOperators.Fin

noncomputable section

namespace Cert.DeepSet

open Idealize.ShloMosaic

/-- The rectifier's floor and the sums' starting value: the single-precision zero word's value. -/
abbrev z32 : EReal := Ideal.ofBits .f32 0x00000000#32

/-- Column of `o` holding body feature `d`: 0..9, then 130..139. -/
def bodyCol (d : Fin 20) : Fin 260 := if h : d.val < 10 then ⟨d.val, by omega⟩ else ⟨120 + d.val, by omega⟩

/-- Column of `o` holding feature `e` of object `n`: 10+15n+e for e < 15, then 140+15n+(e-15). -/
def objCol (n : Fin 8) (e : Fin 30) : Fin 260 :=
  if h : e.val < 15 then ⟨10 + 15 * n.val + e.val, by omega⟩ else ⟨125 + 15 * n.val + e.val, by omega⟩

/-- Position of body feature `d` among the 50 gated features. -/
def lo20 (d : Fin 20) : Fin 50 := ⟨d.val, by omega⟩
/-- Position of object feature `e` among the 50 gated features. -/
def hi30 (e : Fin 30) : Fin 50 := ⟨20 + e.val, by omega⟩

/-- Feature `d` of object `n`'s 50-vector: the body's 20, then the object's 30. -/
def feat (o : Fin 260 → EReal) (n : Fin 8) (d : Fin 50) : EReal :=
  if h : d.val < 20 then o (bodyCol ⟨d.val, h⟩) else o (objCol n ⟨d.val - 20, by omega⟩)

theorem feat_lo20 (o : Fin 260 → EReal) (n : Fin 8) (d : Fin 20) : feat o n (lo20 d) = o (bodyCol d) := by
  unfold feat lo20; rw [dif_pos d.isLt]

theorem feat_hi30 (o : Fin 260 → EReal) (n : Fin 8) (e : Fin 30) : feat o n (hi30 e) = o (objCol n e) := by
  unfold feat hi30
  rw [dif_neg (by simp)]
  congr 2
  exact Fin.ext (by simp)

section
variable (o : Fin 260 → EReal) (g : Fin 100 → EReal)
  (Wc : Fin 100 → Fin 50 → EReal) (bc : Fin 50 → EReal)
  (Wa0 : Fin 50 → Fin 256 → EReal) (ba0 : Fin 256 → EReal)
  (Wa1 : Fin 256 → Fin 400 → EReal) (ba1 : Fin 400 → EReal)
  (Wp0 : Fin 400 → Fin 256 → EReal) (bp0 : Fin 256 → EReal)
  (Wp1 : Fin 256 → Fin 256 → EReal) (bp1 : Fin 256 → EReal)
  (Wp2 : Fin 256 → Fin 8 → EReal) (bp2 : Fin 8 → EReal)

/-- The gate: a logistic of a dense layer of the goal row. -/
def gate (d : Fin 50) : EReal := Ideal.logistic ((∑ k : Fin 100, g k * Wc k d) + bc d)

/-- First hidden layer, all 50 gated features contracted at once. -/
def hidWhole (n : Fin 8) (h : Fin 256) : EReal :=
  max ((∑ d : Fin 50, (feat o n d * gate g Wc bc d) * Wa0 d h) + ba0 h) z32

/-- First hidden layer, the body's contraction plus the object's. -/
def hidSplit (n : Fin 8) (h : Fin 256) : EReal :=
  max (((∑ d : Fin 20, (o (bodyCol d) * gate g Wc bc (lo20 d)) * Wa0 (lo20 d) h)
        + (∑ e : Fin 30, (o (objCol n e) * gate g Wc bc (hi30 e)) * Wa0 (hi30 e) h)) + ba0 h) z32

/-- Second hidden layer of one object, over a given first layer. -/
def act (hid : Fin 8 → Fin 256 → EReal) (n : Fin 8) (k : Fin 400) : EReal :=
  max ((∑ h : Fin 256, hid n h * Wa1 h k) + ba1 k) z32

/-- The eight objects added by one sum from the starting value. -/
def poolSum (y : Fin 8 → Fin 400 → EReal) (k : Fin 400) : EReal := z32 + ∑ n : Fin 8, y n k

/-- The eight objects added one after the other to the starting value. -/
def poolChain (y : Fin 8 → Fin 400 → EReal) (k : Fin 400) : EReal :=
  (((((((z32 + y 0 k) + y 1 k) + y 2 k) + y 3 k) + y 4 k) + y 5 k) + y 6 k) + y 7 k

/-- The three last dense layers over a pooled 400-vector. -/
def head (pool : Fin 400 → EReal) (j : Fin 8) : EReal :=
  Ideal.tanh ((∑ h : Fin 256,
      (max ((∑ h' : Fin 256, (max ((∑ k : Fin 400, pool k * Wp0 k h') + bp0 h') z32) * Wp1 h' h) + bp1 h) z32) * Wp2 h j)
    + bp2 j)

/-- The row's 8 outputs, first arrangement. -/
def outWhole (j : Fin 8) : EReal :=
  head Wp0 bp0 Wp1 bp1 Wp2 bp2 (poolSum (act Wa1 ba1 (hidWhole o g Wc bc Wa0 ba0))) j

/-- The row's 8 outputs, second arrangement. -/
def outSplit (j : Fin 8) : EReal :=
  head Wp0 bp0 Wp1 bp1 Wp2 bp2 (poolChain (act Wa1 ba1 (hidSplit o g Wc bc Wa0 ba0))) j

/-- A sum over the 50 gated positions is the sum over the body's 20 plus the sum over the object's 30. -/
theorem sum_fifty (f : Fin 50 → EReal) : ∑ d : Fin 50, f d = (∑ d : Fin 20, f (lo20 d)) + ∑ e : Fin 30, f (hi30 e) := by
  have h := Fin.sum_univ_add (M := EReal) (a := 20) (b := 30) f
  exact h

theorem hidSplit_eq : hidSplit o g Wc bc Wa0 ba0 = hidWhole o g Wc bc Wa0 ba0 := by
  funext n h
  unfold hidSplit hidWhole
  rw [sum_fifty]
  simp only [feat_lo20, feat_hi30]

theorem poolChain_eq (y : Fin 8 → Fin 400 → EReal) : poolChain y = poolSum y := by
  funext k
  unfold poolChain poolSum
  rw [Fin.sum_univ_eight]
  simp only [add_assoc]

theorem outSplit_eq : outSplit o g Wc bc Wa0 ba0 Wa1 ba1 Wp0 bp0 Wp1 bp1 Wp2 bp2
    = outWhole o g Wc bc Wa0 ba0 Wa1 ba1 Wp0 bp0 Wp1 bp1 Wp2 bp2 := by
  funext j
  unfold outSplit outWhole
  rw [hidSplit_eq, poolChain_eq]

end

end Cert.DeepSet

end
-- ==== Proof.Net.lean ====
/-
  The whole result array as one function of the fourteen argument arrays: entry (b, j) is output j of the network
  applied to row b of the observations and row b of the goals, with the weights and biases read as matrices and
  vectors.
-/
import proofs.«117417_j28552942584470_2_alg».proof.Proof.Spec
import Idealize.ShloMosaic.Lib.ValueIdx

noncomputable section

namespace Cert.DeepSet

open Idealize.ShloMosaic Idealize.ShloMosaic.ValueIdx

/-- Row `b` of a rank-2 array. -/
def rowOf {n k : Nat} (A : FVec Ideal ⟨2, ![n, k]⟩ .f32) (b : Fin n) : Fin k → EReal := fun c => A (ix2 b c)
/-- A rank-2 array as a matrix. -/
def mat {n k : Nat} (A : FVec Ideal ⟨2, ![n, k]⟩ .f32) : Fin n → Fin k → EReal := fun a b => A (ix2 a b)
/-- A rank-1 array as a vector. -/
def vec {n : Nat} (v : FVec Ideal ⟨1, ![n]⟩ .f32) : Fin n → EReal := fun a => v (ix1 a)

/-- Entry (b, j) of the result. -/
def netAt (o : FVec Ideal ⟨2, ![65536, 260]⟩ .f32) (g : FVec Ideal ⟨2, ![65536, 100]⟩ .f32)
    (Wc : FVec Ideal ⟨2, ![100, 50]⟩ .f32) (bc : FVec Ideal ⟨1, ![50]⟩ .f32)
    (Wa0 : FVec Ideal ⟨2, ![50, 256]⟩ .f32) (ba0 : FVec Ideal ⟨1, ![256]⟩ .f32)
    (Wa1 : FVec Ideal ⟨2, ![256, 400]⟩ .f32) (ba1 : FVec Ideal ⟨1, ![400]⟩ .f32)
    (Wp0 : FVec Ideal ⟨2, ![400, 256]⟩ .f32) (bp0 : FVec Ideal ⟨1, ![256]⟩ .f32)
    (Wp1 : FVec Ideal ⟨2, ![256, 256]⟩ .f32) (bp1 : FVec Ideal ⟨1, ![256]⟩ .f32)
    (Wp2 : FVec Ideal ⟨2, ![256, 8]⟩ .f32) (bp2 : FVec Ideal ⟨1, ![8]⟩ .f32)
    (b : Fin 65536) (j : Fin 8) : EReal :=
  outWhole (rowOf o b) (rowOf g b) (mat Wc) (vec bc) (mat Wa0) (vec ba0) (mat Wa1) (vec ba1)
    (mat Wp0) (vec bp0) (mat Wp1) (vec bp1) (mat Wp2) (vec bp2) j

/-- The result array. -/
def net (o : FVec Ideal ⟨2, ![65536, 260]⟩ .f32) (g : FVec Ideal ⟨2, ![65536, 100]⟩ .f32)
    (Wc : FVec Ideal ⟨2, ![100, 50]⟩ .f32) (bc : FVec Ideal ⟨1, ![50]⟩ .f32)
    (Wa0 : FVec Ideal ⟨2, ![50, 256]⟩ .f32) (ba0 : FVec Ideal ⟨1, ![256]⟩ .f32)
    (Wa1 : FVec Ideal ⟨2, ![256, 400]⟩ .f32) (ba1 : FVec Ideal ⟨1, ![400]⟩ .f32)
    (Wp0 : FVec Ideal ⟨2, ![400, 256]⟩ .f32) (bp0 : FVec Ideal ⟨1, ![256]⟩ .f32)
    (Wp1 : FVec Ideal ⟨2, ![256, 256]⟩ .f32) (bp1 : FVec Ideal ⟨1, ![256]⟩ .f32)
    (Wp2 : FVec Ideal ⟨2, ![256, 8]⟩ .f32) (bp2 : FVec Ideal ⟨1, ![8]⟩ .f32) :
    FVec Ideal ⟨2, ![65536, 8]⟩ .f32 :=
  fun i => netAt o g Wc bc Wa0 ba0 Wa1 ba1 Wp0 bp0 Wp1 bp1 Wp2 bp2 (i 0) (i 1)

theorem net_ix2 (o : FVec Ideal ⟨2, ![65536, 260]⟩ .f32) (g : FVec Ideal ⟨2, ![65536, 100]⟩ .f32)
    (Wc : FVec Ideal ⟨2, ![100, 50]⟩ .f32) (bc : FVec Ideal ⟨1, ![50]⟩ .f32)
    (Wa0 : FVec Ideal ⟨2, ![50, 256]⟩ .f32) (ba0 : FVec Ideal ⟨1, ![256]⟩ .f32)
    (Wa1 : FVec Ideal ⟨2, ![256, 400]⟩ .f32) (ba1 : FVec Ideal ⟨1, ![400]⟩ .f32)
    (Wp0 : FVec Ideal ⟨2, ![400, 256]⟩ .f32) (bp0 : FVec Ideal ⟨1, ![256]⟩ .f32)
    (Wp1 : FVec Ideal ⟨2, ![256, 256]⟩ .f32) (bp1 : FVec Ideal ⟨1, ![256]⟩ .f32)
    (Wp2 : FVec Ideal ⟨2, ![256, 8]⟩ .f32) (bp2 : FVec Ideal ⟨1, ![8]⟩ .f32) (b : Fin 65536) (j : Fin 8) :
    net o g Wc bc Wa0 ba0 Wa1 ba1 Wp0 bp0 Wp1 bp1 Wp2 bp2 (ix2 b j)
      = netAt o g Wc bc Wa0 ba0 Wa1 ba1 Wp0 bp0 Wp1 bp1 Wp2 bp2 b j := rfl

end Cert.DeepSet

end
-- ==== Proof.KerOps.lean ====
/-
  The kernel body's layers on one block of 1024 batch rows, read at an entry.

  A dense layer of the body is a matrix product into the zero array plus a bias row; read at entry (r, c) it is the
  sum over the contracted position e of A (r, e) · B (e, c), plus the bias at c. One object's first-layer input is
  two 15-column pieces of the observation block set side by side and multiplied by the object part of the gate; its
  pre-activation adds the body's shared contribution and the bias; rectifying and a second dense layer give the
  object's 400 values.
-/
import proofs.«117417_j28552942584470_2_alg».proof.Proof.Gen.KernelIdeal.Skeleton
import proofs.«117417_j28552942584470_2_alg».proof.Proof.LibPlainMatmul
import proofs.«117417_j28552942584470_2_alg».proof.Proof.LibDenseRows
import proofs.«117417_j28552942584470_2_alg».proof.Proof.Net

noncomputable section

namespace Cert.KernelIdeal.Layers

open Idealize.ShloMosaic Idealize.ShloMosaic.ValueIdx Cert.KernelIdeal Cert.KernelIdeal.Gen
open Cert.DeepSet Cert.DenseRows

/-- A dense layer (product into the zero array, plus a bias vector laid as a row) at an entry. -/
theorem dense_apply {m k n : ℕ} {φ₁ φ₂ : FTy} (A : FVec Ideal ⟨2, ![m, k]⟩ φ₁) (B : FVec Ideal ⟨2, ![k, n]⟩ φ₂)
    (row : FVec Ideal ⟨2, ![1, n]⟩ .f32) (h2 : (⟨2, ![1, n]⟩ : Shape).Broadcasts ⟨2, ![m, n]⟩) (r : Fin m) (c : Fin n) :
    addf (matmul (DotDims.plain m k n) none A B (constant ⟨2, ![m, n]⟩ .f32 0x00000000#32))
        (broadcastTo ⟨2, ![m, n]⟩ row h2) (ix2 r c)
      = (∑ e : Fin k, A (ix2 r e) * B (ix2 e c)) + row (ix2 (0 : Fin 1) c) := by
  show FloatOps.matmul (DotDims.plain m k n) none A B (constant ⟨2, ![m, n]⟩ .f32 0x00000000#32) (ix2 r c)
      + broadcastTo ⟨2, ![m, n]⟩ row h2 (ix2 r c) = _
  rw [PlainMatmul.matmul_zero_apply, broadcastTo_1b_ab_apply]

/-- The two 15-column pieces of an object set side by side, at (r, e). -/
def pair (s1 s2 : FVec Ideal S1024x15 .bf16) (r : Fin 1024) (e : Fin 30) : EReal :=
  if he : e.val < 15 then s1 (ix2 r ⟨e.val, he⟩) else s2 (ix2 r ⟨e.val - 15, by omega⟩)

/-- One object's first-layer pre-activation from its two pieces. -/
def preOf (s1 s2 : FVec Ideal S1024x15 .bf16) (v13 : FVec Ideal S1024x30 .f32) (v23 : FVec Ideal S30x256 .bf16)
    (v25 : FVec Ideal S1x256 .f32) (v26 : FVec Ideal S1024x256 .f32) : FVec Ideal S1024x256 .f32 :=
  addf (addf v26 (matmul dot_S1024x30_S30x256_S1024x256_1_0_0_1_n_n none
      (truncf .bf16 (mulf (extf .f32 (concatenate S1024x30 1 [⟨S1024x15, s1⟩, ⟨S1024x15, s2⟩]
        concatenates_S1024x15_S1024x15_S1024x30_d1) bitsLt_bf16_f32) v13) bitsLt_bf16_f32) v23
      (constant S1024x256 .f32 0x00000000#32)))
    (broadcastTo S1024x256 v25 broadcasts_S1x256_S1024x256)

/-- The same from the observation block and the two pieces' first columns. -/
def pre (c1 c2 : ℕ) (h1 : S1024x260.Slices ![0, c1] S1024x15) (h2 : S1024x260.Slices ![0, c2] S1024x15)
    (v1 : FVec Ideal S1024x260 .bf16) (v13 : FVec Ideal S1024x30 .f32) (v23 : FVec Ideal S30x256 .bf16)
    (v25 : FVec Ideal S1x256 .f32) (v26 : FVec Ideal S1024x256 .f32) : FVec Ideal S1024x256 .f32 :=
  preOf (extractStridedSlice S1024x15 ![0, c1] v1 h1) (extractStridedSlice S1024x15 ![0, c2] v1 h2) v13 v23 v25 v26

/-- Rectified, as the second layer's operand. -/
def rect (p : FVec Ideal S1024x256 .f32) : FVec Ideal S1024x256 .bf16 :=
  truncf .bf16 (maximumf p (broadcast S1024x256 (Scalar.ofBits .f32 0x00000000#32))) bitsLt_bf16_f32

/-- The second dense layer and its rectifier over a rectified first layer. -/
def postOf (q : FVec Ideal S1024x256 .bf16) (acc : FVec Ideal S1024x400 .f32) (v28 : FVec Ideal S256x400 .bf16)
    (v30 : FVec Ideal S1x400 .f32) : FVec Ideal S1024x400 .f32 :=
  maximumf (addf (matmul dot_S1024x256_S256x400_S1024x400_1_0_0_1_n_n none q v28 acc)
      (broadcastTo S1024x400 v30 broadcasts_S1x400_S1024x400))
    (broadcast S1024x400 (Scalar.ofBits .f32 0x00000000#32))

/-- One object's 400 values from its pre-activation. -/
def post (p : FVec Ideal S1024x256 .f32) (v28 : FVec Ideal S256x400 .bf16) (v30 : FVec Ideal S1x400 .f32) :
    FVec Ideal S1024x400 .f32 :=
  postOf (rect p) (constant S1024x400 .f32 0x00000000#32) v28 v30

theorem rect_apply (p : FVec Ideal S1024x256 .f32) (r : Fin 1024) (h : Fin 256) :
    rect p (ix2 r h) = max (p (ix2 r h)) z32 := rfl

theorem preOf_apply (s1 s2 : FVec Ideal S1024x15 .bf16) (v13 : FVec Ideal S1024x30 .f32) (v23 : FVec Ideal S30x256 .bf16)
    (v25 : FVec Ideal S1x256 .f32) (v26 : FVec Ideal S1024x256 .f32) (r : Fin 1024) (h : Fin 256) :
    preOf s1 s2 v13 v23 v25 v26 (ix2 r h)
      = (v26 (ix2 r h) + ∑ e : Fin 30, (pair s1 s2 r e * v13 (ix2 r e)) * v23 (ix2 e h)) + v25 (ix2 (0 : Fin 1) h) := by
  show (v26 (ix2 r h) + FloatOps.matmul (DotDims.plain 1024 30 256) none
      (truncf .bf16 (mulf (extf .f32 (concatenate S1024x30 1 [⟨S1024x15, s1⟩, ⟨S1024x15, s2⟩]
        concatenates_S1024x15_S1024x15_S1024x30_d1) bitsLt_bf16_f32) v13) bitsLt_bf16_f32) v23
      (constant S1024x256 .f32 0x00000000#32) (ix2 r h))
    + broadcastTo S1024x256 v25 broadcasts_S1x256_S1024x256 (ix2 r h) = _
  rw [PlainMatmul.matmul_zero_apply, broadcastTo_1b_ab_apply]
  refine congrArg (fun s => (v26 (ix2 r h) + s) + v25 (ix2 (0 : Fin 1) h)) (Finset.sum_congr rfl fun e _ => ?_)
  show (concatenate S1024x30 1 [⟨S1024x15, s1⟩, ⟨S1024x15, s2⟩] concatenates_S1024x15_S1024x15_S1024x30_d1 (ix2 r e)
      * v13 (ix2 r e)) * v23 (ix2 e h) = _
  unfold pair
  split
  · next he => rw [concatCols_left s1 s2 _ r e he]
  · next he => rw [concatCols_right s1 s2 _ r e (by omega) (by omega)]

theorem postOf_apply (q : FVec Ideal S1024x256 .bf16) (v28 : FVec Ideal S256x400 .bf16) (v30 : FVec Ideal S1x400 .f32)
    (r : Fin 1024) (k : Fin 400) :
    postOf q (constant S1024x400 .f32 0x00000000#32) v28 v30 (ix2 r k)
      = max ((∑ h : Fin 256, q (ix2 r h) * v28 (ix2 h k)) + v30 (ix2 (0 : Fin 1) k)) z32 :=
  congrArg (fun s => max s z32) (dense_apply q v28 v30 broadcasts_S1x400_S1024x400 r k)

theorem post_apply (p : FVec Ideal S1024x256 .f32) (v28 : FVec Ideal S256x400 .bf16) (v30 : FVec Ideal S1x400 .f32)
    (r : Fin 1024) (k : Fin 400) :
    post p v28 v30 (ix2 r k)
      = max ((∑ h : Fin 256, max (p (ix2 r h)) z32 * v28 (ix2 h k)) + v30 (ix2 (0 : Fin 1) k)) z32 :=
  postOf_apply (rect p) v28 v30 r k

end Cert.KernelIdeal.Layers

end
-- ==== Proof.KerPay.lean ====
/-
  The kernel body on one block, entry by entry: output (r, j) of the block is the network's output j, in its second
  arrangement, of row r of the observation block and row r of the goal block.

  The body computes the gate once; the body's 20 gated features give a contribution shared by the eight objects; each
  object adds its own 30 gated features' contribution and the bias, is rectified, goes through the second dense layer
  and is added to the running sum, object 0 first; three dense layers finish.
-/
import proofs.«117417_j28552942584470_2_alg».proof.Proof.KerOps

noncomputable section

namespace Cert.KernelIdeal.Layers

open Idealize.ShloMosaic Idealize.ShloMosaic.ValueIdx Cert.KernelIdeal Cert.KernelIdeal.Gen
open Cert.DeepSet Cert.DenseRows

/-- A rectified dense layer over a block of 1024 rows. -/
def reluDense {k n : ℕ} (A : FVec Ideal ⟨2, ![1024, k]⟩ .bf16) (B : FVec Ideal ⟨2, ![k, n]⟩ .bf16)
    (row : FVec Ideal ⟨2, ![1, n]⟩ .f32) (h2 : (⟨2, ![1, n]⟩ : Shape).Broadcasts ⟨2, ![1024, n]⟩) :
    FVec Ideal ⟨2, ![1024, n]⟩ .bf16 :=
  truncf .bf16 (maximumf (addf (matmul (DotDims.plain 1024 k n) none A B (constant ⟨2, ![1024, n]⟩ .f32 0x00000000#32))
    (broadcastTo ⟨2, ![1024, n]⟩ row h2)) (broadcast ⟨2, ![1024, n]⟩ (Scalar.ofBits .f32 0x00000000#32))) bitsLt_bf16_f32

theorem reluDense_apply {k n : ℕ} (A : FVec Ideal ⟨2, ![1024, k]⟩ .bf16) (B : FVec Ideal ⟨2, ![k, n]⟩ .bf16)
    (row : FVec Ideal ⟨2, ![1, n]⟩ .f32) (h2 : (⟨2, ![1, n]⟩ : Shape).Broadcasts ⟨2, ![1024, n]⟩) (r : Fin 1024) (c : Fin n) :
    reluDense A B row h2 (ix2 r c) = max ((∑ e : Fin k, A (ix2 r e) * B (ix2 e c)) + row (ix2 (0 : Fin 1) c)) z32 :=
  congrArg (fun s => max s z32) (dense_apply A B row h2 r c)

/-- The two pieces of an object read the observation block at the object's columns. -/
theorem pair_slices (c1 c2 : ℕ) (h1 : S1024x260.Slices ![0, c1] S1024x15) (h2 : S1024x260.Slices ![0, c2] S1024x15)
    (v1 : FVec Ideal S1024x260 .bf16) (r : Fin 1024) (e : Fin 30) (col : Fin 260)
    (hcol : col.val = if e.val < 15 then c1 + e.val else c2 + (e.val - 15)) :
    pair (extractStridedSlice S1024x15 ![0, c1] v1 h1) (extractStridedSlice S1024x15 ![0, c2] v1 h2) r e
      = v1 (ix2 r col) := by
  unfold pair
  split
  · next he =>
    rw [if_pos he] at hcol
    rw [sliceCols_apply c1 v1 h1 r ⟨e.val, he⟩ (by show c1 + e.val < 260; have := col.isLt; omega)]
    exact congrArg (fun q => v1 (ix2 r q)) (Fin.ext hcol.symm)
  · next he =>
    rw [if_neg he] at hcol
    rw [sliceCols_apply c2 v1 h2 r ⟨e.val - 15, by have := e.isLt; omega⟩
      (by show c2 + (e.val - 15) < 260; have := col.isLt; omega)]
    exact congrArg (fun q => v1 (ix2 r q)) (Fin.ext hcol.symm)

theorem objCol_val (n : Fin 8) (e : Fin 30) :
    (objCol n e).val = if e.val < 15 then (10 + 15 * n.val) + e.val else (140 + 15 * n.val) + (e.val - 15) := by
  unfold objCol
  split
  · rfl
  · next he => show 125 + 15 * n.val + e.val = _; omega

section
variable (x0 : Vec Ideal S1024x260 .bf16) (x1 : Vec Ideal S1024x100 .bf16) (x2 : Vec Ideal S100x50 .bf16)
  (x3 : Vec Ideal S50 .f32) (x4 : Vec Ideal S50x256 .bf16) (x5 : Vec Ideal S256 .f32)
  (x6 : Vec Ideal S256x400 .bf16) (x7 : Vec Ideal S400 .f32)

theorem pay2_eq : k0_pay2 (F := Ideal) x0 = x0 := by unfold k0_pay2; exact shapeCast_self _ _
theorem pay5_eq : k0_pay5 (F := Ideal) x4 = x4 := by unfold k0_pay5; exact shapeCast_self _ _
theorem pay9_eq : k0_pay9 (F := Ideal) x6 = x6 := by unfold k0_pay9; exact shapeCast_self _ _

/-- The gate at (r, d). -/
theorem gate_apply (r : Fin 1024) (d : Fin 50) :
    k0_pay3 (F := Ideal) x1 x2 x3 (ix2 r d) = gate (rowOf x1 r) (mat x2) (vec x3) d := by
  unfold k0_pay3
  show Ideal.logistic (addf (F := Ideal) (matmul (DotDims.plain 1024 100 50) none (shapeCast S1024x100 x1 shapeCasts_S1024x100_S1024x100)
      (shapeCast S100x50 x2 shapeCasts_S100x50_S100x50) (constant S1024x50 .f32 0x00000000#32))
      (broadcastTo S1024x50 (shapeCast S1x50 x3 shapeCasts_S50_S1x50) broadcasts_S1x50_S1024x50) (ix2 r d)) = _
  rw [dense_apply, shapeCast_a_1a_apply, shapeCast_self, shapeCast_self]
  rfl

theorem pay4_apply (r : Fin 1024) (e : Fin 30) :
    k0_pay4 (F := Ideal) x1 x2 x3 (ix2 r e) = gate (rowOf x1 r) (mat x2) (vec x3) (hi30 e) :=
  (sliceCols_apply 20 (k0_pay3 (F := Ideal) x1 x2 x3) slices_S1024x50_o0_20_S1024x30 r e
    (by have := e.isLt; omega)).trans (gate_apply x1 x2 x3 r ⟨20 + e.val, by have := e.isLt; omega⟩)

theorem pay6_apply (e : Fin 30) (h : Fin 256) : k0_pay6 (F := Ideal) x4 (ix2 e h) = x4 (ix2 (hi30 e) h) :=
  (sliceRows_apply 20 (k0_pay5 (F := Ideal) x4) slices_S50x256_o20_0_S30x256 e h
    (by have := e.isLt; omega)).trans (congrFun (pay5_eq x4) _)

theorem pay7_apply (u : Fin 1) (h : Fin 256) : k0_pay7 (F := Ideal) x5 (ix2 u h) = x5 (ix1 h) :=
  shapeCast_a_1a_apply x5 _ u h

theorem pay10_apply (u : Fin 1) (k : Fin 400) : k0_pay10 (F := Ideal) x7 (ix2 u k) = x7 (ix1 k) :=
  shapeCast_a_1a_apply x7 _ u k

theorem bodyCol_lt (d : Fin 20) (hd : d.val < 10) : bodyCol d = ⟨0 + d.val, by omega⟩ := by
  unfold bodyCol; rw [dif_pos hd]; exact Fin.ext (by simp)

theorem bodyCol_ge (d : Fin 20) (hd : ¬ d.val < 10) : bodyCol d = ⟨130 + (d.val - 10), by have := d.isLt; omega⟩ := by
  unfold bodyCol; rw [dif_neg hd]; exact Fin.ext (by show 120 + d.val = 130 + (d.val - 10); omega)

/-- The body's shared first-layer contribution at (r, h). -/
theorem pay8_apply (r : Fin 1024) (h : Fin 256) :
    k0_pay8 (F := Ideal) x0 x1 x2 x3 x4 (ix2 r h)
      = ∑ d : Fin 20, (x0 (ix2 r (bodyCol d)) * gate (rowOf x1 r) (mat x2) (vec x3) (lo20 d)) * x4 (ix2 (lo20 d) h) := by
  unfold k0_pay8
  show FloatOps.matmul (DotDims.plain 1024 20 256) none
    (truncf .bf16 (mulf (extf .f32 (concatenate S1024x20 1
      [⟨S1024x10, extractStridedSlice S1024x10 ![0, 0] (k0_pay2 x0) slices_S1024x260_o0_0_S1024x10⟩,
       ⟨S1024x10, extractStridedSlice S1024x10 ![0, 130] (k0_pay2 x0) slices_S1024x260_o0_130_S1024x10⟩]
      concatenates_S1024x10_S1024x10_S1024x20_d1) bitsLt_bf16_f32)
      (extractStridedSlice S1024x20 ![0, 0] (k0_pay3 x1 x2 x3) slices_S1024x50_o0_0_S1024x20)) bitsLt_bf16_f32)
    (extractStridedSlice S20x256 ![0, 0] (k0_pay5 x4) slices_S50x256_o0_0_S20x256)
    (constant S1024x256 .f32 0x00000000#32) (ix2 r h) = _
  rw [PlainMatmul.matmul_zero_apply]
  refine Finset.sum_congr rfl fun d _ => ?_
  show (concatenate S1024x20 1
      [⟨S1024x10, extractStridedSlice S1024x10 ![0, 0] (k0_pay2 x0) slices_S1024x260_o0_0_S1024x10⟩,
       ⟨S1024x10, extractStridedSlice S1024x10 ![0, 130] (k0_pay2 x0) slices_S1024x260_o0_130_S1024x10⟩]
      concatenates_S1024x10_S1024x10_S1024x20_d1 (ix2 r d)
    * extractStridedSlice S1024x20 ![0, 0] (k0_pay3 x1 x2 x3) slices_S1024x50_o0_0_S1024x20 (ix2 r d))
    * extractStridedSlice S20x256 ![0, 0] (k0_pay5 x4) slices_S50x256_o0_0_S20x256 (ix2 d h) = _
  have hg : extractStridedSlice S1024x20 ![0, 0] (k0_pay3 (F := Ideal) x1 x2 x3) slices_S1024x50_o0_0_S1024x20 (ix2 r d)
      = gate (rowOf x1 r) (mat x2) (vec x3) (lo20 d) :=
    (sliceCols_apply 0 (k0_pay3 (F := Ideal) x1 x2 x3) slices_S1024x50_o0_0_S1024x20 r d
      (by have := d.isLt; omega)).trans
      ((gate_apply x1 x2 x3 r ⟨0 + d.val, by have := d.isLt; omega⟩).trans
        (congrArg (gate (rowOf x1 r) (mat x2) (vec x3)) (Fin.ext (by show 0 + d.val = d.val; omega))))
  have hw : extractStridedSlice S20x256 ![0, 0] (k0_pay5 (F := Ideal) x4) slices_S50x256_o0_0_S20x256 (ix2 d h)
      = x4 (ix2 (lo20 d) h) :=
    (sliceRows_apply 0 (k0_pay5 (F := Ideal) x4) slices_S50x256_o0_0_S20x256 d h
      (by have := d.isLt; omega)).trans
      ((congrFun (pay5_eq x4) _).trans
        (congrArg (fun q => x4 (ix2 q h)) (Fin.ext (by show 0 + d.val = d.val; omega))))
  have ho : concatenate S1024x20 1
      [⟨S1024x10, extractStridedSlice S1024x10 ![0, 0] (k0_pay2 (F := Ideal) x0) slices_S1024x260_o0_0_S1024x10⟩,
       ⟨S1024x10, extractStridedSlice S1024x10 ![0, 130] (k0_pay2 (F := Ideal) x0) slices_S1024x260_o0_130_S1024x10⟩]
      concatenates_S1024x10_S1024x10_S1024x20_d1 (ix2 r d) = x0 (ix2 r (bodyCol d)) := by
    rw [pay2_eq]
    by_cases hd : d.val < 10
    · rw [concatCols_left _ _ _ r d hd, sliceCols_apply 0 x0 _ r ⟨d.val, hd⟩ (by show 0 + d.val < 260; omega),
        bodyCol_lt d hd]
    · rw [concatCols_right _ _ _ r d (by omega) (by have := d.isLt; omega),
        sliceCols_apply 130 x0 _ r ⟨d.val - 10, by have := d.isLt; omega⟩
          (by show 130 + (d.val - 10) < 260; have := d.isLt; omega), bodyCol_ge d hd]
  rw [hg, hw, ho]

/-- One object's rectified first layer at (r, h): the second arrangement's hidden value. -/
theorem hid_apply (n : Fin 8) (c1 c2 : ℕ) (h1 : S1024x260.Slices ![0, c1] S1024x15)
    (h2 : S1024x260.Slices ![0, c2] S1024x15) (hc1 : c1 = 10 + 15 * n.val) (hc2 : c2 = 140 + 15 * n.val)
    (r : Fin 1024) (h : Fin 256) :
    max (pre c1 c2 h1 h2 (k0_pay2 x0) (k0_pay4 x1 x2 x3) (k0_pay6 x4) (k0_pay7 x5) (k0_pay8 x0 x1 x2 x3 x4) (ix2 r h)) z32
      = hidSplit (rowOf x0 r) (rowOf x1 r) (mat x2) (vec x3) (mat x4) (vec x5) n h := by
  unfold pre
  rw [preOf_apply, pay8_apply, pay7_apply, pay2_eq]
  unfold hidSplit
  refine congrArg (fun s => max ((_ + s) + _) z32) (Finset.sum_congr rfl fun e _ => ?_)
  rw [pair_slices c1 c2 h1 h2 x0 r e (objCol n e) (by rw [objCol_val, hc1, hc2]), pay4_apply, pay6_apply]
  rfl

/-- One object's 400 values over the block. -/
def objVal (c1 c2 : ℕ) (h1 : S1024x260.Slices ![0, c1] S1024x15) (h2 : S1024x260.Slices ![0, c2] S1024x15) :
    FVec Ideal S1024x400 .f32 :=
  post (pre c1 c2 h1 h2 (k0_pay2 x0) (k0_pay4 x1 x2 x3) (k0_pay6 x4) (k0_pay7 x5) (k0_pay8 x0 x1 x2 x3 x4))
    (k0_pay9 x6) (k0_pay10 x7)

theorem objVal_apply (n : Fin 8) (c1 c2 : ℕ) (h1 : S1024x260.Slices ![0, c1] S1024x15)
    (h2 : S1024x260.Slices ![0, c2] S1024x15) (hc1 : c1 = 10 + 15 * n.val) (hc2 : c2 = 140 + 15 * n.val)
    (r : Fin 1024) (k : Fin 400) :
    objVal x0 x1 x2 x3 x4 x5 x6 x7 c1 c2 h1 h2 (ix2 r k)
      = act (mat x6) (vec x7) (hidSplit (rowOf x0 r) (rowOf x1 r) (mat x2) (vec x3) (mat x4) (vec x5)) n k := by
  unfold objVal
  rw [post_apply, pay10_apply, pay9_eq]
  unfold act
  refine congrArg (fun s => max (s + _) z32) (Finset.sum_congr rfl fun h _ => ?_)
  rw [hid_apply x0 x1 x2 x3 x4 x5 n c1 c2 h1 h2 hc1 hc2 r h]
  rfl

/-- The running sum after the eight objects, as the printed parts nest it. -/
theorem pool_eq :
    k0_pay18 (F := Ideal) (k0_pay2 x0) (k0_pay4 x1 x2 x3) (k0_pay6 x4) (k0_pay7 x5) (k0_pay8 x0 x1 x2 x3 x4) (k0_pay9 x6) (k0_pay10 x7)
      (k0_pay16 (k0_pay2 x0) (k0_pay4 x1 x2 x3) (k0_pay6 x4) (k0_pay7 x5) (k0_pay8 x0 x1 x2 x3 x4) (k0_pay9 x6) (k0_pay10 x7)
        (k0_pay13 (k0_pay2 x0) (k0_pay4 x1 x2 x3) (k0_pay6 x4) (k0_pay7 x5) (k0_pay8 x0 x1 x2 x3 x4) (k0_pay9 x6) (k0_pay10 x7)
          (k0_pay11 (F := Ideal)) (k0_pay12 x0 x1 x2 x3 x4 x5))
        (k0_pay14 (k0_pay2 x0)) (k0_pay15 (k0_pay2 x0)))
      (k0_pay17 (k0_pay2 x0) (k0_pay4 x1 x2 x3) (k0_pay6 x4) (k0_pay7 x5) (k0_pay8 x0 x1 x2 x3 x4))
      (constant S1024x400 .f32 0x00000000#32)
    = addf (addf (addf (addf (addf (addf (addf (addf (k0_pay11 (F := Ideal))
        (objVal x0 x1 x2 x3 x4 x5 x6 x7 10 140 slices_S1024x260_o0_10_S1024x15 slices_S1024x260_o0_140_S1024x15))
        (objVal x0 x1 x2 x3 x4 x5 x6 x7 25 155 slices_S1024x260_o0_25_S1024x15 slices_S1024x260_o0_155_S1024x15))
        (objVal x0 x1 x2 x3 x4 x5 x6 x7 40 170 slices_S1024x260_o0_40_S1024x15 slices_S1024x260_o0_170_S1024x15))
        (objVal x0 x1 x2 x3 x4 x5 x6 x7 55 185 slices_S1024x260_o0_55_S1024x15 slices_S1024x260_o0_185_S1024x15))
        (objVal x0 x1 x2 x3 x4 x5 x6 x7 70 200 slices_S1024x260_o0_70_S1024x15 slices_S1024x260_o0_200_S1024x15))
        (objVal x0 x1 x2 x3 x4 x5 x6 x7 85 215 slices_S1024x260_o0_85_S1024x15 slices_S1024x260_o0_215_S1024x15))
        (objVal x0 x1 x2 x3 x4 x5 x6 x7 100 230 slices_S1024x260_o0_100_S1024x15 slices_S1024x260_o0_230_S1024x15))
        (objVal x0 x1 x2 x3 x4 x5 x6 x7 115 245 slices_S1024x260_o0_115_S1024x15 slices_S1024x260_o0_245_S1024x15) := rfl

end

end Cert.KernelIdeal.Layers

end
-- ==== Proof.KerBlock.lean ====
/-
  One block of the kernel's result is the network at the block's rows.

  The three last dense layers are read at an entry as the spec's head over the pooled row; with the running sum of the
  eight objects this makes entry (r, j) of the block the second arrangement's output j of row r, hence (the two
  arrangements agree) the first arrangement's. If the observation and goal blocks are rows embrow r of two arrays and the
  weight blocks are the whole weight arrays, the block's entry (r, j) is the result array's entry (embrow r, j).
-/
import proofs.«117417_j28552942584470_2_alg».proof.Proof.KerPay
import proofs.«117417_j28552942584470_2_alg».proof.Proof.Gen.KernelIdeal.Frame

noncomputable section

namespace Cert.KernelIdeal.Layers

open Idealize.ShloMosaic Idealize.ShloMosaic.ValueIdx Cert.KernelIdeal Cert.KernelIdeal.Gen
open Cert.DeepSet Cert.DenseRows

theorem hz2 : (![0, 0] : Fin 2 → Nat) = fun _ => 0 := funext fun a => by fin_cases a <;> rfl
theorem hz1 : (![0] : Fin 1 → Nat) = fun _ => 0 := funext fun a => by fin_cases a; rfl

section
variable (x0 : Vec Ideal S1024x260 .bf16) (x1 : Vec Ideal S1024x100 .bf16) (x2 : Vec Ideal S100x50 .bf16)
  (x3 : Vec Ideal S50 .f32) (x4 : Vec Ideal S50x256 .bf16) (x5 : Vec Ideal S256 .f32)
  (x6 : Vec Ideal S256x400 .bf16) (x7 : Vec Ideal S400 .f32) (x8 : Vec Ideal S400x256 .bf16) (x9 : Vec Ideal S256 .f32)
  (x10 : Vec Ideal S256x256 .bf16) (x11 : Vec Ideal S256 .f32) (x12 : Vec Ideal S256x8 .bf16) (x13 : Vec Ideal S8 .f32)

theorem pay19_eq : k0_pay19 (F := Ideal) x8 = x8 := by unfold k0_pay19; exact shapeCast_self _ _

theorem pay20_apply (u : Fin 1) (h : Fin 256) : k0_pay20 (F := Ideal) x9 (ix2 u h) = x9 (ix1 h) :=
  shapeCast_a_1a_apply x9 _ u h

/-- The three last layers as two rectified dense layers and a dense layer through tanh. -/
theorem tail_eq (v183 : FVec Ideal S1024x400 .f32) :
    k0_pay1 (F := Ideal) v183 (k0_pay19 x8) (k0_pay20 x9) x10 x11 x12 x13
      = tanh (addf (matmul (DotDims.plain 1024 256 8) none
          (reluDense (reluDense (truncf .bf16 v183 bitsLt_bf16_f32) (k0_pay19 x8) (k0_pay20 x9) broadcasts_S1x256_S1024x256)
            (shapeCast S256x256 x10 shapeCasts_S256x256_S256x256) (shapeCast S1x256 x11 shapeCasts_S256_S1x256)
            broadcasts_S1x256_S1024x256)
          (shapeCast S256x8 x12 shapeCasts_S256x8_S256x8 : FVec Ideal S256x8 .bf16) (constant S1024x8 .f32 0x00000000#32))
        (broadcastTo S1024x8 (shapeCast S1x8 x13 shapeCasts_S8_S1x8 : FVec Ideal S1x8 .f32) broadcasts_S1x8_S1024x8)) := rfl

theorem tail_apply (v183 : FVec Ideal S1024x400 .f32) (r : Fin 1024) (j : Fin 8) :
    k0_pay1 (F := Ideal) v183 (k0_pay19 x8) (k0_pay20 x9) x10 x11 x12 x13 (ix2 r j)
      = head (mat x8) (vec x9) (mat x10) (vec x11) (mat x12) (vec x13) (fun k => v183 (ix2 r k)) j := by
  rw [tail_eq]
  show Ideal.tanh (addf (F := Ideal) (matmul (DotDims.plain 1024 256 8) none
          (reluDense (reluDense (truncf .bf16 v183 bitsLt_bf16_f32) (k0_pay19 x8) (k0_pay20 x9) broadcasts_S1x256_S1024x256)
            (shapeCast S256x256 x10 shapeCasts_S256x256_S256x256) (shapeCast S1x256 x11 shapeCasts_S256_S1x256)
            broadcasts_S1x256_S1024x256)
          (shapeCast S256x8 x12 shapeCasts_S256x8_S256x8 : FVec Ideal S256x8 .bf16) (constant S1024x8 .f32 0x00000000#32))
        (broadcastTo S1024x8 (shapeCast S1x8 x13 shapeCasts_S8_S1x8 : FVec Ideal S1x8 .f32) broadcasts_S1x8_S1024x8) (ix2 r j)) = _
  rw [dense_apply]
  simp only [reluDense_apply, shapeCast_self, shapeCast_a_1a_apply, pay19_eq, pay20_apply]
  rfl

/-- Entry (r, j) of the body's result over the loaded blocks. -/
theorem out_apply (r : Fin 1024) (j : Fin 8) :
    out0_14 (F := Ideal) x0 x1 x2 x3 x4 x5 x6 x7 x8 x9 x10 x11 x12 x13 (ix2 r j)
      = outSplit (rowOf x0 r) (rowOf x1 r) (mat x2) (vec x3) (mat x4) (vec x5) (mat x6) (vec x7)
          (mat x8) (vec x9) (mat x10) (vec x11) (mat x12) (vec x13) j := by
  unfold out0_14
  rw [View.canon_unit_zero hz2]
  simp only [View.ld_unit_zero (S := S1024x260) hz2, View.ld_unit_zero (S := S1024x100) hz2,
    View.ld_unit_zero (S := S100x50) hz2, View.ld_unit_zero (S := S50) hz1, View.ld_unit_zero (S := S50x256) hz2,
    View.ld_unit_zero (S := S256) hz1, View.ld_unit_zero (S := S256x400) hz2, View.ld_unit_zero (S := S400) hz1,
    View.ld_unit_zero (S := S400x256) hz2, View.ld_unit_zero (S := S256x256) hz2, View.ld_unit_zero (S := S256x8) hz2,
    View.ld_unit_zero (S := S8) hz1]
  rw [tail_apply, pool_eq]
  unfold outSplit
  refine congrArg (fun p => head (mat x8) (vec x9) (mat x10) (vec x11) (mat x12) (vec x13) p j) (funext fun k => ?_)
  show ((((((((k0_pay11 (F := Ideal) (ix2 r k)
      + objVal x0 x1 x2 x3 x4 x5 x6 x7 10 140 slices_S1024x260_o0_10_S1024x15 slices_S1024x260_o0_140_S1024x15 (ix2 r k))
      + objVal x0 x1 x2 x3 x4 x5 x6 x7 25 155 slices_S1024x260_o0_25_S1024x15 slices_S1024x260_o0_155_S1024x15 (ix2 r k))
      + objVal x0 x1 x2 x3 x4 x5 x6 x7 40 170 slices_S1024x260_o0_40_S1024x15 slices_S1024x260_o0_170_S1024x15 (ix2 r k))
      + objVal x0 x1 x2 x3 x4 x5 x6 x7 55 185 slices_S1024x260_o0_55_S1024x15 slices_S1024x260_o0_185_S1024x15 (ix2 r k))
      + objVal x0 x1 x2 x3 x4 x5 x6 x7 70 200 slices_S1024x260_o0_70_S1024x15 slices_S1024x260_o0_200_S1024x15 (ix2 r k))
      + objVal x0 x1 x2 x3 x4 x5 x6 x7 85 215 slices_S1024x260_o0_85_S1024x15 slices_S1024x260_o0_215_S1024x15 (ix2 r k))
      + objVal x0 x1 x2 x3 x4 x5 x6 x7 100 230 slices_S1024x260_o0_100_S1024x15 slices_S1024x260_o0_230_S1024x15 (ix2 r k))
      + objVal x0 x1 x2 x3 x4 x5 x6 x7 115 245 slices_S1024x260_o0_115_S1024x15 slices_S1024x260_o0_245_S1024x15 (ix2 r k)) = _
  rw [objVal_apply x0 x1 x2 x3 x4 x5 x6 x7 0 10 140 _ _ rfl rfl, objVal_apply x0 x1 x2 x3 x4 x5 x6 x7 1 25 155 _ _ rfl rfl,
    objVal_apply x0 x1 x2 x3 x4 x5 x6 x7 2 40 170 _ _ rfl rfl, objVal_apply x0 x1 x2 x3 x4 x5 x6 x7 3 55 185 _ _ rfl rfl,
    objVal_apply x0 x1 x2 x3 x4 x5 x6 x7 4 70 200 _ _ rfl rfl, objVal_apply x0 x1 x2 x3 x4 x5 x6 x7 5 85 215 _ _ rfl rfl,
    objVal_apply x0 x1 x2 x3 x4 x5 x6 x7 6 100 230 _ _ rfl rfl, objVal_apply x0 x1 x2 x3 x4 x5 x6 x7 7 115 245 _ _ rfl rfl]
  rfl

/-- A block whose observation and goal rows are rows `embrow r` of two arrays, and whose weight blocks are the weight
    arrays, holds the result array's entries at those rows. -/
theorem block_eq (a0 : FVec Ideal ⟨2, ![65536, 260]⟩ .f32) (a1 : FVec Ideal ⟨2, ![65536, 100]⟩ .f32)
    (embrow : Fin 1024 → Fin 65536)
    (h0 : ∀ (r : Fin 1024) (k : Fin 260), x0 (ix2 r k) = a0 (ix2 (embrow r) k))
    (h1 : ∀ (r : Fin 1024) (k : Fin 100), x1 (ix2 r k) = a1 (ix2 (embrow r) k))
    (r : Fin 1024) (j : Fin 8) :
    out0_14 (F := Ideal) x0 x1 x2 x3 x4 x5 x6 x7 x8 x9 x10 x11 x12 x13 (ix2 r j)
      = net a0 a1 x2 x3 x4 x5 x6 x7 x8 x9 x10 x11 x12 x13 (ix2 (embrow r) j) := by
  rw [out_apply, outSplit_eq, net_ix2]
  unfold netAt
  have e0 : rowOf x0 r = rowOf a0 (embrow r) := funext fun k => h0 r k
  have e1 : rowOf x1 r = rowOf a1 (embrow r) := funext fun k => h1 r k
  rw [e0, e1]

end

end Cert.KernelIdeal.Layers

end
-- ==== Proof.KerArray.lean ====
/-
  The kernel's result array after the run is the network of the argument arrays.

  The arrays the region reads are the arguments themselves: the eight operands converted to a narrower format before the
  launch are, on the extended reals, the arguments unchanged. Grid point t reads rows 1024·t … 1024·t+1023 of the
  observations and of the goals, and every weight array whole; it writes rows 1024·t … 1024·t+1023 of the result. So
  what point t writes back is block t of the network of the argument arrays; the 64 blocks cover the result array (row b
  lies in block b / 1024), hence the array after the run is that function.
-/
import proofs.«117417_j28552942584470_2_alg».proof.Proof.KerBlock
import proofs.«117417_j28552942584470_2_alg».proof.Proof.Gen.KernelIdeal.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.DeepSet Cert.KernelIdeal.Layers
open Idealize.ShloMosaic.Pipeline (Dat)

variable (m : (ℓ : Loc nD τ sig) → Buf (Elt Ideal) ℓ) (ρ : Dev nD → PrngReg)

/-- The result array as a function of the argument arrays. -/
def G (c : Dev nD) : S65536x8.Idx → EReal :=
  net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! ## The converted operands are the arguments -/

theorem V_main_v0 (c : Dev nD) : (V m c main_v0 : S65536x260.Idx → EReal) = (m ((c : Thread nD τ).loc main_arg0)) := by
  dsimp only [Gen.V, Gen.hostOps0]; after_results; rfl

theorem V_main_v1 (c : Dev nD) : (V m c main_v1 : S65536x100.Idx → EReal) = (m ((c : Thread nD τ).loc main_arg1)) := by
  dsimp only [Gen.V, Gen.hostOps0]; after_results; rfl

theorem V_main_v2 (c : Dev nD) : (V m c main_v2 : S100x50.Idx → EReal) = (m ((c : Thread nD τ).loc main_arg2)) := by
  dsimp only [Gen.V, Gen.hostOps0]; after_results; rfl

theorem V_main_v3 (c : Dev nD) : (V m c main_v3 : S50x256.Idx → EReal) = (m ((c : Thread nD τ).loc main_arg4)) := by
  dsimp only [Gen.V, Gen.hostOps0]; after_results; rfl

theorem V_main_v4 (c : Dev nD) : (V m c main_v4 : S256x400.Idx → EReal) = (m ((c : Thread nD τ).loc main_arg6)) := by
  dsimp only [Gen.V, Gen.hostOps0]; after_results; rfl

theorem V_main_v5 (c : Dev nD) : (V m c main_v5 : S400x256.Idx → EReal) = (m ((c : Thread nD τ).loc main_arg8)) := by
  dsimp only [Gen.V, Gen.hostOps0]; after_results; rfl

theorem V_main_v6 (c : Dev nD) : (V m c main_v6 : S256x256.Idx → EReal) = (m ((c : Thread nD τ).loc main_arg10)) := by
  dsimp only [Gen.V, Gen.hostOps0]; after_results; rfl

theorem V_main_v7 (c : Dev nD) : (V m c main_v7 : S256x8.Idx → EReal) = (m ((c : Thread nD τ).loc main_arg12)) := by
  dsimp only [Gen.V, Gen.hostOps0]; after_results; rfl

/-! ## Where each window's block lies -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0
    ∧ win0_12.index t (0 : Fin 2) = 0 ∧ win0_12.index t (1 : Fin 2) = 0
    ∧ win0_13.index t (0 : Fin 1) = 0 :=
  (by decide +kernel : ∀ t : Fin grid0.N, _)

/-- Row r of block t is row 1024·t + r of the array. -/
def embrow (t : Fin cfg0.N) (r : Fin 1024) : Fin 65536 :=
  ⟨t.val * 1024 + r.val, by have h : t.val < 64 := lt_of_lt_of_eq t.isLt N_0; have := r.isLt; omega⟩

theorem iblk0_apply (c : Dev nD) (t : Fin cfg0.N) (r : Fin 1024) (k : Fin 260) :
    iblk (F := Ideal) m c 0 t (ix2 r k) = (m ((c : Thread nD τ).loc main_arg0)) (ix2 (embrow t r) k) := by
  show V m c main_v0 (((cfg0.win 0).blk t).view.emb (ix2 r k)) = _
  rw [V_main_v0]
  obtain ⟨e0, e1, -⟩ := idx_facts t
  refine congrArg (m ((c : Thread nD τ).loc main_arg0)) (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 260 + 1 * k.val = k.val; rw [e1]; omega

theorem iblk1_apply (c : Dev nD) (t : Fin cfg0.N) (r : Fin 1024) (k : Fin 100) :
    iblk (F := Ideal) m c 1 t (ix2 r k) = (m ((c : Thread nD τ).loc main_arg1)) (ix2 (embrow t r) k) := by
  show V m c main_v1 (((cfg0.win 1).blk t).view.emb (ix2 r k)) = _
  rw [V_main_v1]
  obtain ⟨e0, e1, -⟩ := (idx_facts t).2.2
  refine congrArg (m ((c : Thread nD τ).loc main_arg1)) (funext fun a => Fin.ext ?_)
  match a with
  | ⟨0, _⟩ => show win0_1.index t (0 : Fin 2) * 1024 + 1 * r.val = t.val * 1024 + r.val; rw [e0]; omega
  | ⟨1, _⟩ => show win0_1.index t (1 : Fin 2) * 100 + 1 * k.val = k.val; rw [e1]; omega

theorem iblk2_eq (c : Dev nD) (t : Fin cfg0.N) : (iblk (F := Ideal) m c 2 t : S100x50.Idx → EReal) = (m ((c : Thread nD τ).loc main_arg2)) := by
  funext y
  show V m c main_v2 (((cfg0.win 2).blk t).view.emb y) = _
  rw [V_main_v2]
  refine congrArg (m ((c : Thread nD τ).loc main_arg2)) (funext fun a => Fin.ext ?_)
  match a with
  | ⟨0, _⟩ => show win0_2.index t (0 : Fin 2) * 100 + 1 * (y 0).val = (y 0).val; rw [(idx_facts t).2.2.2.2.2.2.1]; omega
  | ⟨1, _⟩ => show win0_2.index t (1 : Fin 2) * 50 + 1 * (y 1).val = (y 1).val; rw [(idx_facts t).2.2.2.2.2.2.2.1]; omega

theorem iblk3_eq (c : Dev nD) (t : Fin cfg0.N) : (iblk (F := Ideal) m c 3 t : S50.Idx → EReal) = (m ((c : Thread nD τ).loc main_arg3)) := by
  funext y
  show V m c main_arg3 (((cfg0.win 3).blk t).view.emb y) = _
  rw [Gen.V_main_arg3]
  refine congrArg (m ((c : Thread nD τ).loc main_arg3)) (funext fun a => Fin.ext ?_)
  match a with
  | ⟨0, _⟩ => show win0_3.index t (0 : Fin 1) * 50 + 1 * (y 0).val = (y 0).val; rw [(idx_facts t).2.2.2.2.2.2.2.2.1]; omega

theorem iblk4_eq (c : Dev nD) (t : Fin cfg0.N) : (iblk (F := Ideal) m c 4 t : S50x256.Idx → EReal) = (m ((c : Thread nD τ).loc main_arg4)) := by
  funext y
  show V m c main_v3 (((cfg0.win 4).blk t).view.emb y) = _
  rw [V_main_v3]
  refine congrArg (m ((c : Thread nD τ).loc main_arg4)) (funext fun a => Fin.ext ?_)
  match a with
  | ⟨0, _⟩ => show win0_4.index t (0 : Fin 2) * 50 + 1 * (y 0).val = (y 0).val; rw [(idx_facts t).2.2.2.2.2.2.2.2.2.1]; omega
  | ⟨1, _⟩ => show win0_4.index t (1 : Fin 2) * 256 + 1 * (y 1).val = (y 1).val; rw [(idx_facts t).2.2.2.2.2.2.2.2.2.2.1]; omega

theorem iblk5_eq (c : Dev nD) (t : Fin cfg0.N) : (iblk (F := Ideal) m c 5 t : S256.Idx → EReal) = (m ((c : Thread nD τ).loc main_arg5)) := by
  funext y
  show V m c main_arg5 (((cfg0.win 5).blk t).view.emb y) = _
  rw [Gen.V_main_arg5]
  refine congrArg (m ((c : Thread nD τ).loc main_arg5)) (funext fun a => Fin.ext ?_)
  match a with
  | ⟨0, _⟩ => show win0_5.index t (0 : Fin 1) * 256 + 1 * (y 0).val = (y 0).val; rw [(idx_facts t).2.2.2.2.2.2.2.2.2.2.2.1]; omega

theorem iblk6_eq (c : Dev nD) (t : Fin cfg0.N) : (iblk (F := Ideal) m c 6 t : S256x400.Idx → EReal) = (m ((c : Thread nD τ).loc main_arg6)) := by
  funext y
  show V m c main_v4 (((cfg0.win 6).blk t).view.emb y) = _
  rw [V_main_v4]
  refine congrArg (m ((c : Thread nD τ).loc main_arg6)) (funext fun a => Fin.ext ?_)
  match a with
  | ⟨0, _⟩ => show win0_6.index t (0 : Fin 2) * 256 + 1 * (y 0).val = (y 0).val; rw [(idx_facts t).2.2.2.2.2.2.2.2.2.2.2.2.1]; omega
  | ⟨1, _⟩ => show win0_6.index t (1 : Fin 2) * 400 + 1 * (y 1).val = (y 1).val; rw [(idx_facts t).2.2.2.2.2.2.2.2.2.2.2.2.2.1]; omega

theorem iblk7_eq (c : Dev nD) (t : Fin cfg0.N) : (iblk (F := Ideal) m c 7 t : S400.Idx → EReal) = (m ((c : Thread nD τ).loc main_arg7)) := by
  funext y
  show V m c main_arg7 (((cfg0.win 7).blk t).view.emb y) = _
  rw [Gen.V_main_arg7]
  refine congrArg (m ((c : Thread nD τ).loc main_arg7)) (funext fun a => Fin.ext ?_)
  match a with
  | ⟨0, _⟩ => show win0_7.index t (0 : Fin 1) * 400 + 1 * (y 0).val = (y 0).val; rw [(idx_facts t).2.2.2.2.2.2.2.2.2.2.2.2.2.2.1]; omega

theorem iblk8_eq (c : Dev nD) (t : Fin cfg0.N) : (iblk (F := Ideal) m c 8 t : S400x256.Idx → EReal) = (m ((c : Thread nD τ).loc main_arg8)) := by
  funext y
  show V m c main_v5 (((cfg0.win 8).blk t).view.emb y) = _
  rw [V_main_v5]
  refine congrArg (m ((c : Thread nD τ).loc main_arg8)) (funext fun a => Fin.ext ?_)
  match a with
  | ⟨0, _⟩ => show win0_8.index t (0 : Fin 2) * 400 + 1 * (y 0).val = (y 0).val; rw [(idx_facts t).2.2.2.2.2.2.2.2.2.2.2.2.2.2.2.1]; omega
  | ⟨1, _⟩ => show win0_8.index t (1 : Fin 2) * 256 + 1 * (y 1).val = (y 1).val; rw [(idx_facts t).2.2.2.2.2.2.2.2.2.2.2.2.2.2.2.2.1]; omega

theorem iblk9_eq (c : Dev nD) (t : Fin cfg0.N) : (iblk (F := Ideal) m c 9 t : S256.Idx → EReal) = (m ((c : Thread nD τ).loc main_arg9)) := by
  funext y
  show V m c main_arg9 (((cfg0.win 9).blk t).view.emb y) = _
  rw [Gen.V_main_arg9]
  refine congrArg (m ((c : Thread nD τ).loc main_arg9)) (funext fun a => Fin.ext ?_)
  match a with
  | ⟨0, _⟩ => show win0_9.index t (0 : Fin 1) * 256 + 1 * (y 0).val = (y 0).val; rw [(idx_facts t).2.2.2.2.2.2.2.2.2.2.2.2.2.2.2.2.2.1]; omega

theorem iblk10_eq (c : Dev nD) (t : Fin cfg0.N) : (iblk (F := Ideal) m c 10 t : S256x256.Idx → EReal) = (m ((c : Thread nD τ).loc main_arg10)) := by
  funext y
  show V m c main_v6 (((cfg0.win 10).blk t).view.emb y) = _
  rw [V_main_v6]
  refine congrArg (m ((c : Thread nD τ).loc main_arg10)) (funext fun a => Fin.ext ?_)
  match a with
  | ⟨0, _⟩ => show win0_10.index t (0 : Fin 2) * 256 + 1 * (y 0).val = (y 0).val; rw [(idx_facts t).2.2.2.2.2.2.2.2.2.2.2.2.2.2.2.2.2.2.1]; omega
  | ⟨1, _⟩ => show win0_10.index t (1 : Fin 2) * 256 + 1 * (y 1).val = (y 1).val; rw [(idx_facts t).2.2.2.2.2.2.2.2.2.2.2.2.2.2.2.2.2.2.2.1]; omega

theorem iblk11_eq (c : Dev nD) (t : Fin cfg0.N) : (iblk (F := Ideal) m c 11 t : S256.Idx → EReal) = (m ((c : Thread nD τ).loc main_arg11)) := by
  funext y
  show V m c main_arg11 (((cfg0.win 11).blk t).view.emb y) = _
  rw [Gen.V_main_arg11]
  refine congrArg (m ((c : Thread nD τ).loc main_arg11)) (funext fun a => Fin.ext ?_)
  match a with
  | ⟨0, _⟩ => show win0_11.index t (0 : Fin 1) * 256 + 1 * (y 0).val = (y 0).val; rw [(idx_facts t).2.2.2.2.2.2.2.2.2.2.2.2.2.2.2.2.2.2.2.2.1]; omega

theorem iblk12_eq (c : Dev nD) (t : Fin cfg0.N) : (iblk (F := Ideal) m c 12 t : S256x8.Idx → EReal) = (m ((c : Thread nD τ).loc main_arg12)) := by
  funext y
  show V m c main_v7 (((cfg0.win 12).blk t).view.emb y) = _
  rw [V_main_v7]
  refine congrArg (m ((c : Thread nD τ).loc main_arg12)) (funext fun a => Fin.ext ?_)
  match a with
  | ⟨0, _⟩ => show win0_12.index t (0 : Fin 2) * 256 + 1 * (y 0).val = (y 0).val; rw [(idx_facts t).2.2.2.2.2.2.2.2.2.2.2.2.2.2.2.2.2.2.2.2.2.1]; omega
  | ⟨1, _⟩ => show win0_12.index t (1 : Fin 2) * 8 + 1 * (y 1).val = (y 1).val; rw [(idx_facts t).2.2.2.2.2.2.2.2.2.2.2.2.2.2.2.2.2.2.2.2.2.2.1]; omega

theorem iblk13_eq (c : Dev nD) (t : Fin cfg0.N) : (iblk (F := Ideal) m c 13 t : S8.Idx → EReal) = (m ((c : Thread nD τ).loc main_arg13)) := by
  funext y
  show V m c main_arg13 (((cfg0.win 13).blk t).view.emb y) = _
  rw [Gen.V_main_arg13]
  refine congrArg (m ((c : Thread nD τ).loc main_arg13)) (funext fun a => Fin.ext ?_)
  match a with
  | ⟨0, _⟩ => show win0_13.index t (0 : Fin 1) * 8 + 1 * (y 0).val = (y 0).val; rw [(idx_facts t).2.2.2.2.2.2.2.2.2.2.2.2.2.2.2.2.2.2.2.2.2.2.2]; omega

/-! ## What a point writes back, the cover, and the array after the run -/

/-- What point t writes back is block t of the network of the argument arrays. -/
theorem flushed_eq (c : Dev nD) (t : Fin cfg0.N) :
    (dats m 0 c).flushed 14 t = ((cfg0.win 14).blk t).view.read (Elt Ideal) (G m c) := by
  rw [Value.flushed14]
  funext j
  show out0_14 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) j
    = G m c (((cfg0.win 14).blk t).view.emb j)
  obtain ⟨r, q, rfl⟩ : ∃ (r : Fin 1024) (q : Fin 8), j = ix2 r q := ⟨j 0, j 1, eq_ix2 j⟩
  rw [block_eq (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (m ((c : Thread nD τ).loc main_arg0)) (m ((c : Thread nD τ).loc main_arg1)) (embrow t) (iblk0_apply m c t) (iblk1_apply m c t) r q]
  rw [iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t]
  obtain ⟨-, -, -, -, e0, e1, -⟩ := idx_facts t
  refine congrArg (G m c) (funext fun a => Fin.ext ?_)
  match a with
  | ⟨0, _⟩ => show t.val * 1024 + r.val = win0_14.index t (0 : Fin 2) * 1024 + 1 * r.val; rw [e0]; omega
  | ⟨1, _⟩ => show q.val = win0_14.index t (1 : Fin 2) * 8 + 1 * q.val; rw [e1]; omega

/-- An index of the result array is in point t's block iff each coordinate is in the block's range on its axis. -/
theorem mem_blk (t : Fin cfg0.N) (i : S65536x8.Idx) :
    i ∈ ((cfg0.win 14).blk t).view.set ↔ ∀ a : Fin 2, win0_14.index t a * S1024x8.size a ≤ (i a).val
      ∧ (i a).val < win0_14.index t a * S1024x8.size a + S1024x8.size a := by
  show i ∈ ((View.whole main_v8).slice (win0_14.rect t)).set ↔ _
  rw [View.set_slice_whole, Rect.mem_set_unit]
  exact Iff.rfl

/-- Every index of the result array lies in some point's block: row b in block b / 1024. -/
theorem cover (i : S65536x8.Idx) : ∃ t : Fin cfg0.N, (cfg0.win 14).flush t = true ∧ i ∈ ((cfg0.win 14).blk t).view.set := by
  have hi0 : (i 0).val < 65536 := (i 0).isLt
  have hi1 : (i 1).val < 8 := (i 1).isLt
  have hN : cfg0.N = 64 := N_0
  let t : Fin cfg0.N := ⟨(i 0).val / 1024, by rw [hN]; omega⟩
  obtain ⟨-, -, -, -, e0, e1, -⟩ := idx_facts t
  have ht : t.val = (i 0).val / 1024 := rfl
  refine ⟨t, flush0_14 t, ?_⟩
  rw [mem_blk]
  intro a
  match a with
  | ⟨0, _⟩ =>
    show win0_14.index t (0 : Fin 2) * 1024 ≤ (i 0).val ∧ (i 0).val < win0_14.index t (0 : Fin 2) * 1024 + 1024
    rw [e0, ht]; omega
  | ⟨1, _⟩ =>
    show win0_14.index t (1 : Fin 2) * 8 ≤ (i 1).val ∧ (i 1).val < win0_14.index t (1 : Fin 2) * 8 + 8
    rw [e1]; omega

/-- The result array after the run. -/
theorem final (c : Dev nD) : (dats m 0 c).arrAt 14 cfg0.N = G m c :=
  (dats m 0 c).arrAt_eq_of_cover 14 (G m c) (fun t _ => flushed_eq m c t) cover

/-- The kernel's run with its result named: the network of the argument arrays; the arguments unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.ArrayValue

end
-- ==== Proof.RefTerm.lean ====
/-
  The reference's host operations as pure functions of its fourteen argument arrays, one definition per operation in
  program order: each stage is the operation applied to the stages (or arguments) it reads. The last stage is the
  program's result.
-/
import proofs.«117417_j28552942584470_2_alg».proof.ReferenceIdeal
import Idealize.ShloMosaic.PureOps.Ideal

noncomputable section

namespace Cert.ReferenceIdeal.RefTerm

open Idealize.ShloMosaic Cert.ReferenceIdeal
open Cert.ReferenceIdeal.Facts₀ Cert.ReferenceIdeal.Facts

variable [Cert.ReferenceIdeal.Facts]

/-- The fourteen argument arrays: observations, goals, and the six dense layers' weights and biases. -/
structure Args where
  a0 : FVec Ideal S65536x260 .f32
  a1 : FVec Ideal S65536x100 .f32
  a2 : FVec Ideal S100x50 .f32
  a3 : FVec Ideal S50 .f32
  a4 : FVec Ideal S50x256 .f32
  a5 : FVec Ideal S256 .f32
  a6 : FVec Ideal S256x400 .f32
  a7 : FVec Ideal S400 .f32
  a8 : FVec Ideal S400x256 .f32
  a9 : FVec Ideal S256 .f32
  a10 : FVec Ideal S256x256 .f32
  a11 : FVec Ideal S256 .f32
  a12 : FVec Ideal S256x8 .f32
  a13 : FVec Ideal S8 .f32

def t_c (Z : Args) : IVec S8x30 32 := fun i => lit0 (S8x30.rowMajor i)
def t_v0 (Z : Args) : FVec Ideal S65536x50 .f32 := Host.dotGeneral dot_S65536x100_S100x50_S65536x50_1_0_0_1_n_n none Z.a1 Z.a2
def t_v1 (Z : Args) : FVec Ideal S1x50 .f32 := broadcastInDim S1x50 ![1] bcast_S50_S1x50_1 Z.a3
def t_v2 (Z : Args) : FVec Ideal S65536x50 .f32 := broadcastInDim S65536x50 ![0, 1] bcast_S1x50_S65536x50_0_1 (t_v1 Z)
def t_v3 (Z : Args) : FVec Ideal S65536x50 .f32 := addf (t_v0 Z) (t_v2 Z)
def t_v4 (Z : Args) : FVec Ideal S65536x50 .f32 := Host.negf (t_v3 Z)
def t_v5 (Z : Args) : FVec Ideal S65536x50 .f32 := Host.exp (t_v4 Z)
def t_cst (Z : Args) : FVec Ideal S_ .f32 := constant S_ .f32 0x3F800000#32
def t_v6 (Z : Args) : FVec Ideal S65536x50 .f32 := broadcastInDim S65536x50 ![] bcast_S_S65536x50 (t_cst Z)
def t_v7 (Z : Args) : FVec Ideal S65536x50 .f32 := addf (t_v6 Z) (t_v5 Z)
def t_cst_0 (Z : Args) : FVec Ideal S_ .f32 := constant S_ .f32 0x3F800000#32
def t_v8 (Z : Args) : FVec Ideal S65536x50 .f32 := broadcastInDim S65536x50 ![] bcast_S_S65536x50 (t_cst_0 Z)
def t_v9 (Z : Args) : FVec Ideal S65536x50 .f32 := Host.divf (t_v8 Z) (t_v7 Z)
def t_v10 (Z : Args) : FVec Ideal S65536x10 .f32 := extractStridedSlice S65536x10 ![0, 0] Z.a0 slices_S65536x260_S65536x10_0_0
def t_v11 (Z : Args) : FVec Ideal S65536x10 .f32 := extractStridedSlice S65536x10 ![0, 130] Z.a0 slices_S65536x260_S65536x10_0_130
def t_v12 (Z : Args) : FVec Ideal S65536x20 .f32 := concatenate S65536x20 1 [⟨S65536x10, (t_v10 Z)⟩, ⟨S65536x10, (t_v11 Z)⟩] concatenates_S65536x10_S65536x10_S65536x20_d1
def t_c_1 (Z : Args) : IVec S_ 32 := constantI S_ 32 0#32
def t_v13 (Z : Args) : IVec S8x30 32 := broadcastInDim S8x30 ![] bcast_S_S8x30 (t_c_1 Z)
def t_v14 (Z : Args) : IVec S8x30 1 := cmpi .slt (t_c Z) (t_v13 Z)
def t_c_2 (Z : Args) : IVec S_ 32 := constantI S_ 32 260#32
def t_v15 (Z : Args) : IVec S8x30 32 := broadcastInDim S8x30 ![] bcast_S_S8x30 (t_c_2 Z)
def t_v16 (Z : Args) : IVec S8x30 32 := addi (t_c Z) (t_v15 Z)
def t_v17 (Z : Args) : IVec S8x30 32 := select (t_v14 Z) (t_v16 Z) (t_c Z)
def t_v18 (Z : Args) : IVec S8x30x1 32 := broadcastInDim S8x30x1 ![0, 1] bcast_S8x30_S8x30x1_0_1 (t_v17 Z)
def t_v19 (Z : Args) : FVec Ideal S65536x8x30 .f32 := Host.gather gather_S65536x260_S8x30x1_S65536x8x30_0_1_n_n_1_2_655361 Z.a0 (t_v18 Z)
def t_v20 (Z : Args) : FVec Ideal S65536x1x20 .f32 := broadcastInDim S65536x1x20 ![0, 2] bcast_S65536x20_S65536x1x20_0_2 (t_v12 Z)
def t_v21 (Z : Args) : FVec Ideal S65536x8x20 .f32 := broadcastInDim S65536x8x20 ![0, 1, 2] bcast_S65536x1x20_S65536x8x20_0_1_2 (t_v20 Z)
def t_v22 (Z : Args) : FVec Ideal S65536x8x50 .f32 := concatenate S65536x8x50 2 [⟨S65536x8x20, (t_v21 Z)⟩, ⟨S65536x8x30, (t_v19 Z)⟩] concatenates_S65536x8x20_S65536x8x30_S65536x8x50_d2
def t_v23 (Z : Args) : FVec Ideal S65536x1x50 .f32 := broadcastInDim S65536x1x50 ![0, 2] bcast_S65536x50_S65536x1x50_0_2 (t_v9 Z)
def t_v24 (Z : Args) : FVec Ideal S65536x8x50 .f32 := broadcastInDim S65536x8x50 ![0, 1, 2] bcast_S65536x1x50_S65536x8x50_0_1_2 (t_v23 Z)
def t_v25 (Z : Args) : FVec Ideal S65536x8x50 .f32 := mulf (t_v22 Z) (t_v24 Z)
def t_v26 (Z : Args) : FVec Ideal S65536x8x256 .f32 := Host.dotGeneral dot_S65536x8x50_S50x256_S65536x8x256_2_0_01_1_n_n none (t_v25 Z) Z.a4
def t_v27 (Z : Args) : FVec Ideal S1x1x256 .f32 := broadcastInDim S1x1x256 ![2] bcast_S256_S1x1x256_2 Z.a5
def t_v28 (Z : Args) : FVec Ideal S65536x8x256 .f32 := broadcastInDim S65536x8x256 ![0, 1, 2] bcast_S1x1x256_S65536x8x256_0_1_2 (t_v27 Z)
def t_v29 (Z : Args) : FVec Ideal S65536x8x256 .f32 := addf (t_v26 Z) (t_v28 Z)
def t_call0_cst (Z : Args) : FVec Ideal S_ .f32 := constant S_ .f32 0x00000000#32
def t_call0_v0 (Z : Args) : FVec Ideal S65536x8x256 .f32 := broadcastInDim S65536x8x256 ![] bcast_S_S65536x8x256 (t_call0_cst Z)
def t_v30 (Z : Args) : FVec Ideal S65536x8x256 .f32 := maximumf (t_v29 Z) (t_call0_v0 Z)
def t_v31 (Z : Args) : FVec Ideal S65536x8x400 .f32 := Host.dotGeneral dot_S65536x8x256_S256x400_S65536x8x400_2_0_01_1_n_n none (t_v30 Z) Z.a6
def t_v32 (Z : Args) : FVec Ideal S1x1x400 .f32 := broadcastInDim S1x1x400 ![2] bcast_S400_S1x1x400_2 Z.a7
def t_v33 (Z : Args) : FVec Ideal S65536x8x400 .f32 := broadcastInDim S65536x8x400 ![0, 1, 2] bcast_S1x1x400_S65536x8x400_0_1_2 (t_v32 Z)
def t_v34 (Z : Args) : FVec Ideal S65536x8x400 .f32 := addf (t_v31 Z) (t_v33 Z)
def t_call1_cst (Z : Args) : FVec Ideal S_ .f32 := constant S_ .f32 0x00000000#32
def t_call1_v0 (Z : Args) : FVec Ideal S65536x8x400 .f32 := broadcastInDim S65536x8x400 ![] bcast_S_S65536x8x400 (t_call1_cst Z)
def t_v35 (Z : Args) : FVec Ideal S65536x8x400 .f32 := maximumf (t_v34 Z) (t_call1_v0 Z)
def t_cst_3 (Z : Args) : FVec Ideal S_ .f32 := constant S_ .f32 0x00000000#32
def t_v36 (Z : Args) : FVec Ideal S65536x400 .f32 := Host.reduceAdd (t_v35 Z) (t_cst_3 Z) reducesTo_S65536x8x400_S65536x400_d1 h_S_
def t_v37 (Z : Args) : FVec Ideal S65536x256 .f32 := Host.dotGeneral dot_S65536x400_S400x256_S65536x256_1_0_0_1_n_n none (t_v36 Z) Z.a8
def t_v38 (Z : Args) : FVec Ideal S1x256 .f32 := broadcastInDim S1x256 ![1] bcast_S256_S1x256_1 Z.a9
def t_v39 (Z : Args) : FVec Ideal S65536x256 .f32 := broadcastInDim S65536x256 ![0, 1] bcast_S1x256_S65536x256_0_1 (t_v38 Z)
def t_v40 (Z : Args) : FVec Ideal S65536x256 .f32 := addf (t_v37 Z) (t_v39 Z)
def t_call2_cst (Z : Args) : FVec Ideal S_ .f32 := constant S_ .f32 0x00000000#32
def t_call2_v0 (Z : Args) : FVec Ideal S65536x256 .f32 := broadcastInDim S65536x256 ![] bcast_S_S65536x256 (t_call2_cst Z)
def t_v41 (Z : Args) : FVec Ideal S65536x256 .f32 := maximumf (t_v40 Z) (t_call2_v0 Z)
def t_v42 (Z : Args) : FVec Ideal S65536x256 .f32 := Host.dotGeneral dot_S65536x256_S256x256_S65536x256_1_0_0_1_n_n none (t_v41 Z) Z.a10
def t_v43 (Z : Args) : FVec Ideal S1x256 .f32 := broadcastInDim S1x256 ![1] bcast_S256_S1x256_1 Z.a11
def t_v44 (Z : Args) : FVec Ideal S65536x256 .f32 := broadcastInDim S65536x256 ![0, 1] bcast_S1x256_S65536x256_0_1 (t_v43 Z)
def t_v45 (Z : Args) : FVec Ideal S65536x256 .f32 := addf (t_v42 Z) (t_v44 Z)
def t_call3_cst (Z : Args) : FVec Ideal S_ .f32 := constant S_ .f32 0x00000000#32
def t_call3_v0 (Z : Args) : FVec Ideal S65536x256 .f32 := broadcastInDim S65536x256 ![] bcast_S_S65536x256 (t_call3_cst Z)
def t_v46 (Z : Args) : FVec Ideal S65536x256 .f32 := maximumf (t_v45 Z) (t_call3_v0 Z)
def t_v47 (Z : Args) : FVec Ideal S65536x8 .f32 := Host.dotGeneral dot_S65536x256_S256x8_S65536x8_1_0_0_1_n_n none (t_v46 Z) Z.a12
def t_v48 (Z : Args) : FVec Ideal S1x8 .f32 := broadcastInDim S1x8 ![1] bcast_S8_S1x8_1 Z.a13
def t_v49 (Z : Args) : FVec Ideal S65536x8 .f32 := broadcastInDim S65536x8 ![0, 1] bcast_S1x8_S65536x8_0_1 (t_v48 Z)
def t_v50 (Z : Args) : FVec Ideal S65536x8 .f32 := addf (t_v47 Z) (t_v49 Z)
def t_v51 (Z : Args) : FVec Ideal S65536x8 .f32 := Host.tanh (t_v50 Z)

end Cert.ReferenceIdeal.RefTerm

end
-- ==== Proof.RefRun.lean ====
/-
  The reference program's run, read back: its @main is a straight line of sixty-six host operations (the four calls of
  the outlined rectifier functions listed in place, three operations each, over the call's own buffers), so every weakly
  fair execution terminates, the result buffer holds the operations' composed value of the fourteen argument arrays — the
  last stage of the staged term — and the argument arrays are unchanged.
-/
import proofs.«117417_j28552942584470_2_alg».proof.Proof.RefTerm
import proofs.«117417_j28552942584470_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- @main's sixty-six operations, in order; each call of a rectifier function stands as its three operations (the zero,
    its broadcast, the maximum) over the buffers of that call. -/
abbrev ops : List (HloOp τ sig (Elt F)) :=
  [ nullary main_c (fun i => lit0 (S8x30.rowMajor i)),
    binary main_arg1 main_arg2 main_v0 ((fun l r => Host.dotGeneral dot_S65536x100_S100x50_S65536x50_1_0_0_1_n_n none l r) : (⟨S65536x100, .f32⟩ : BufTy).Contents (Elt F) → (⟨S100x50, .f32⟩ : BufTy).Contents (Elt F) → (⟨S65536x50, .f32⟩ : BufTy).Contents (Elt F)),
    unary main_arg3 main_v1 (broadcastInDim S1x50 ![1] bcast_S50_S1x50_1 : (⟨S50, .f32⟩ : BufTy).Contents (Elt F) → (⟨S1x50, .f32⟩ : BufTy).Contents (Elt F)),
    unary main_v1 main_v2 (broadcastInDim S65536x50 ![0, 1] bcast_S1x50_S65536x50_0_1 : (⟨S1x50, .f32⟩ : BufTy).Contents (Elt F) → (⟨S65536x50, .f32⟩ : BufTy).Contents (Elt F)),
    binary main_v0 main_v2 main_v3 (addf : (⟨S65536x50, .f32⟩ : BufTy).Contents (Elt F) → (⟨S65536x50, .f32⟩ : BufTy).Contents (Elt F) → (⟨S65536x50, .f32⟩ : BufTy).Contents (Elt F)),
    unary main_v3 main_v4 (Host.negf : (⟨S65536x50, .f32⟩ : BufTy).Contents (Elt F) → (⟨S65536x50, .f32⟩ : BufTy).Contents (Elt F)),
    unary main_v4 main_v5 (Host.exp : (⟨S65536x50, .f32⟩ : BufTy).Contents (Elt F) → (⟨S65536x50, .f32⟩ : BufTy).Contents (Elt F)),
    nullary main_cst (constant S_ .f32 0x3F800000#32),
    unary main_cst main_v6 (broadcastInDim S65536x50 ![] bcast_S_S65536x50 : (⟨S_, .f32⟩ : BufTy).Contents (Elt F) → (⟨S65536x50, .f32⟩ : BufTy).Contents (Elt F)),
    binary main_v6 main_v5 main_v7 (addf : (⟨S65536x50, .f32⟩ : BufTy).Contents (Elt F) → (⟨S65536x50, .f32⟩ : BufTy).Contents (Elt F) → (⟨S65536x50, .f32⟩ : BufTy).Contents (Elt F)),
    nullary main_cst_0 (constant S_ .f32 0x3F800000#32),
    unary main_cst_0 main_v8 (broadcastInDim S65536x50 ![] bcast_S_S65536x50 : (⟨S_, .f32⟩ : BufTy).Contents (Elt F) → (⟨S65536x50, .f32⟩ : BufTy).Contents (Elt F)),
    binary main_v8 main_v7 main_v9 (Host.divf : (⟨S65536x50, .f32⟩ : BufTy).Contents (Elt F) → (⟨S65536x50, .f32⟩ : BufTy).Contents (Elt F) → (⟨S65536x50, .f32⟩ : BufTy).Contents (Elt F)),
    unary main_arg0 main_v10 ((extractStridedSlice S65536x10 ![0, 0] · slices_S65536x260_S65536x10_0_0) : (⟨S65536x260, .f32⟩ : BufTy).Contents (Elt F) → (⟨S65536x10, .f32⟩ : BufTy).Contents (Elt F)),
    unary main_arg0 main_v11 ((extractStridedSlice S65536x10 ![0, 130] · slices_S65536x260_S65536x10_0_130) : (⟨S65536x260, .f32⟩ : BufTy).Contents (Elt F) → (⟨S65536x10, .f32⟩ : BufTy).Contents (Elt F)),
    binary main_v10 main_v11 main_v12 ((fun a b => concatenate S65536x20 1 [⟨S65536x10, a⟩, ⟨S65536x10, b⟩] concatenates_S65536x10_S65536x10_S65536x20_d1) : (⟨S65536x10, .f32⟩ : BufTy).Contents (Elt F) → (⟨S65536x10, .f32⟩ : BufTy).Contents (Elt F) → (⟨S65536x20, .f32⟩ : BufTy).Contents (Elt F)),
    nullary main_c_1 (constantI S_ 32 0#32),
    unary main_c_1 main_v13 (broadcastInDim S8x30 ![] bcast_S_S8x30 : (⟨S_, .i32⟩ : BufTy).Contents (Elt F) → (⟨S8x30, .i32⟩ : BufTy).Contents (Elt F)),
    binary main_c main_v13 main_v14 (cmpi .slt : (⟨S8x30, .i32⟩ : BufTy).Contents (Elt F) → (⟨S8x30, .i32⟩ : BufTy).Contents (Elt F) → (⟨S8x30, .i1⟩ : BufTy).Contents (Elt F)),
    nullary main_c_2 (constantI S_ 32 260#32),
    unary main_c_2 main_v15 (broadcastInDim S8x30 ![] bcast_S_S8x30 : (⟨S_, .i32⟩ : BufTy).Contents (Elt F) → (⟨S8x30, .i32⟩ : BufTy).Contents (Elt F)),
    binary main_c main_v15 main_v16 (addi : (⟨S8x30, .i32⟩ : BufTy).Contents (Elt F) → (⟨S8x30, .i32⟩ : BufTy).Contents (Elt F) → (⟨S8x30, .i32⟩ : BufTy).Contents (Elt F)),
    ternary main_v14 main_v16 main_c main_v17 (select : (⟨S8x30, .i1⟩ : BufTy).Contents (Elt F) → (⟨S8x30, .i32⟩ : BufTy).Contents (Elt F) → (⟨S8x30, .i32⟩ : BufTy).Contents (Elt F) → (⟨S8x30, .i32⟩ : BufTy).Contents (Elt F)),
    unary main_v17 main_v18 (broadcastInDim S8x30x1 ![0, 1] bcast_S8x30_S8x30x1_0_1 : (⟨S8x30, .i32⟩ : BufTy).Contents (Elt F) → (⟨S8x30x1, .i32⟩ : BufTy).Contents (Elt F)),
    binary main_arg0 main_v18 main_v19 ((fun x i => Host.gather gather_S65536x260_S8x30x1_S65536x8x30_0_1_n_n_1_2_655361 x i) : (⟨S65536x260, .f32⟩ : BufTy).Contents (Elt F) → (⟨S8x30x1, .i32⟩ : BufTy).Contents (Elt F) → (⟨S65536x8x30, .f32⟩ : BufTy).Contents (Elt F)),
    unary main_v12 main_v20 (broadcastInDim S65536x1x20 ![0, 2] bcast_S65536x20_S65536x1x20_0_2 : (⟨S65536x20, .f32⟩ : BufTy).Contents (Elt F) → (⟨S65536x1x20, .f32⟩ : BufTy).Contents (Elt F)),
    unary main_v20 main_v21 (broadcastInDim S65536x8x20 ![0, 1, 2] bcast_S65536x1x20_S65536x8x20_0_1_2 : (⟨S65536x1x20, .f32⟩ : BufTy).Contents (Elt F) → (⟨S65536x8x20, .f32⟩ : BufTy).Contents (Elt F)),
    binary main_v21 main_v19 main_v22 ((fun a b => concatenate S65536x8x50 2 [⟨S65536x8x20, a⟩, ⟨S65536x8x30, b⟩] concatenates_S65536x8x20_S65536x8x30_S65536x8x50_d2) : (⟨S65536x8x20, .f32⟩ : BufTy).Contents (Elt F) → (⟨S65536x8x30, .f32⟩ : BufTy).Contents (Elt F) → (⟨S65536x8x50, .f32⟩ : BufTy).Contents (Elt F)),
    unary main_v9 main_v23 (broadcastInDim S65536x1x50 ![0, 2] bcast_S65536x50_S65536x1x50_0_2 : (⟨S65536x50, .f32⟩ : BufTy).Contents (Elt F) → (⟨S65536x1x50, .f32⟩ : BufTy).Contents (Elt F)),
    unary main_v23 main_v24 (broadcastInDim S65536x8x50 ![0, 1, 2] bcast_S65536x1x50_S65536x8x50_0_1_2 : (⟨S65536x1x50, .f32⟩ : BufTy).Contents (Elt F) → (⟨S65536x8x50, .f32⟩ : BufTy).Contents (Elt F)),
    binary main_v22 main_v24 main_v25 (mulf : (⟨S65536x8x50, .f32⟩ : BufTy).Contents (Elt F) → (⟨S65536x8x50, .f32⟩ : BufTy).Contents (Elt F) → (⟨S65536x8x50, .f32⟩ : BufTy).Contents (Elt F)),
    binary main_v25 main_arg4 main_v26 ((fun l r => Host.dotGeneral dot_S65536x8x50_S50x256_S65536x8x256_2_0_01_1_n_n none l r) : (⟨S65536x8x50, .f32⟩ : BufTy).Contents (Elt F) → (⟨S50x256, .f32⟩ : BufTy).Contents (Elt F) → (⟨S65536x8x256, .f32⟩ : BufTy).Contents (Elt F)),
    unary main_arg5 main_v27 (broadcastInDim S1x1x256 ![2] bcast_S256_S1x1x256_2 : (⟨S256, .f32⟩ : BufTy).Contents (Elt F) → (⟨S1x1x256, .f32⟩ : BufTy).Contents (Elt F)),
    unary main_v27 main_v28 (broadcastInDim S65536x8x256 ![0, 1, 2] bcast_S1x1x256_S65536x8x256_0_1_2 : (⟨S1x1x256, .f32⟩ : BufTy).Contents (Elt F) → (⟨S65536x8x256, .f32⟩ : BufTy).Contents (Elt F)),
    binary main_v26 main_v28 main_v29 (addf : (⟨S65536x8x256, .f32⟩ : BufTy).Contents (Elt F) → (⟨S65536x8x256, .f32⟩ : BufTy).Contents (Elt F) → (⟨S65536x8x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x8x256, .f32⟩) main_call0_v0) (broadcastInDim S65536x8x256 ![] bcast_S_S65536x8x256),
    TRef.binary (TRef.of (T := ⟨S65536x8x256, .f32⟩) main_v29) (TRef.of (T := ⟨S65536x8x256, .f32⟩) main_call0_v0) (TRef.of (T := ⟨S65536x8x256, .f32⟩) main_v30) maximumf,
    binary main_v30 main_arg6 main_v31 ((fun l r => Host.dotGeneral dot_S65536x8x256_S256x400_S65536x8x400_2_0_01_1_n_n none l r) : (⟨S65536x8x256, .f32⟩ : BufTy).Contents (Elt F) → (⟨S256x400, .f32⟩ : BufTy).Contents (Elt F) → (⟨S65536x8x400, .f32⟩ : BufTy).Contents (Elt F)),
    unary main_arg7 main_v32 (broadcastInDim S1x1x400 ![2] bcast_S400_S1x1x400_2 : (⟨S400, .f32⟩ : BufTy).Contents (Elt F) → (⟨S1x1x400, .f32⟩ : BufTy).Contents (Elt F)),
    unary main_v32 main_v33 (broadcastInDim S65536x8x400 ![0, 1, 2] bcast_S1x1x400_S65536x8x400_0_1_2 : (⟨S1x1x400, .f32⟩ : BufTy).Contents (Elt F) → (⟨S65536x8x400, .f32⟩ : BufTy).Contents (Elt F)),
    binary main_v31 main_v33 main_v34 (addf : (⟨S65536x8x400, .f32⟩ : BufTy).Contents (Elt F) → (⟨S65536x8x400, .f32⟩ : BufTy).Contents (Elt F) → (⟨S65536x8x400, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x8x400, .f32⟩) main_call1_v0) (broadcastInDim S65536x8x400 ![] bcast_S_S65536x8x400),
    TRef.binary (TRef.of (T := ⟨S65536x8x400, .f32⟩) main_v34) (TRef.of (T := ⟨S65536x8x400, .f32⟩) main_call1_v0) (TRef.of (T := ⟨S65536x8x400, .f32⟩) main_v35) maximumf,
    nullary main_cst_3 (constant S_ .f32 0x00000000#32),
    binary main_v35 main_cst_3 main_v36 ((fun x v => Host.reduceAdd x v reducesTo_S65536x8x400_S65536x400_d1 h_S_) : (⟨S65536x8x400, .f32⟩ : BufTy).Contents (Elt F) → (⟨S_, .f32⟩ : BufTy).Contents (Elt F) → (⟨S65536x400, .f32⟩ : BufTy).Contents (Elt F)),
    binary main_v36 main_arg8 main_v37 ((fun l r => Host.dotGeneral dot_S65536x400_S400x256_S65536x256_1_0_0_1_n_n none l r) : (⟨S65536x400, .f32⟩ : BufTy).Contents (Elt F) → (⟨S400x256, .f32⟩ : BufTy).Contents (Elt F) → (⟨S65536x256, .f32⟩ : BufTy).Contents (Elt F)),
    unary main_arg9 main_v38 (broadcastInDim S1x256 ![1] bcast_S256_S1x256_1 : (⟨S256, .f32⟩ : BufTy).Contents (Elt F) → (⟨S1x256, .f32⟩ : BufTy).Contents (Elt F)),
    unary main_v38 main_v39 (broadcastInDim S65536x256 ![0, 1] bcast_S1x256_S65536x256_0_1 : (⟨S1x256, .f32⟩ : BufTy).Contents (Elt F) → (⟨S65536x256, .f32⟩ : BufTy).Contents (Elt F)),
    binary main_v37 main_v39 main_v40 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x256, .f32⟩) main_call2_v0) (broadcastInDim S65536x256 ![] bcast_S_S65536x256),
    TRef.binary (TRef.of (T := ⟨S65536x256, .f32⟩) main_v40) (TRef.of (T := ⟨S65536x256, .f32⟩) main_call2_v0) (TRef.of (T := ⟨S65536x256, .f32⟩) main_v41) maximumf,
    binary main_v41 main_arg10 main_v42 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg11 main_v43 (broadcastInDim S1x256 ![1] bcast_S256_S1x256_1 : (⟨S256, .f32⟩ : BufTy).Contents (Elt F) → (⟨S1x256, .f32⟩ : BufTy).Contents (Elt F)),
    unary main_v43 main_v44 (broadcastInDim S65536x256 ![0, 1] bcast_S1x256_S65536x256_0_1 : (⟨S1x256, .f32⟩ : BufTy).Contents (Elt F) → (⟨S65536x256, .f32⟩ : BufTy).Contents (Elt F)),
    binary main_v42 main_v44 main_v45 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x256, .f32⟩) main_call3_v0) (broadcastInDim S65536x256 ![] bcast_S_S65536x256),
    TRef.binary (TRef.of (T := ⟨S65536x256, .f32⟩) main_v45) (TRef.of (T := ⟨S65536x256, .f32⟩) main_call3_v0) (TRef.of (T := ⟨S65536x256, .f32⟩) main_v46) maximumf,
    binary main_v46 main_arg12 main_v47 ((fun l r => Host.dotGeneral dot_S65536x256_S256x8_S65536x8_1_0_0_1_n_n none l r) : (⟨S65536x256, .f32⟩ : BufTy).Contents (Elt F) → (⟨S256x8, .f32⟩ : BufTy).Contents (Elt F) → (⟨S65536x8, .f32⟩ : BufTy).Contents (Elt F)),
    unary main_arg13 main_v48 (broadcastInDim S1x8 ![1] bcast_S8_S1x8_1 : (⟨S8, .f32⟩ : BufTy).Contents (Elt F) → (⟨S1x8, .f32⟩ : BufTy).Contents (Elt F)),
    unary main_v48 main_v49 (broadcastInDim S65536x8 ![0, 1] bcast_S1x8_S65536x8_0_1 : (⟨S1x8, .f32⟩ : BufTy).Contents (Elt F) → (⟨S65536x8, .f32⟩ : BufTy).Contents (Elt F)),
    binary main_v47 main_v49 main_v50 (addf : (⟨S65536x8, .f32⟩ : BufTy).Contents (Elt F) → (⟨S65536x8, .f32⟩ : BufTy).Contents (Elt F) → (⟨S65536x8, .f32⟩ : BufTy).Contents (Elt F)),
    unary main_v50 main_v51 (Host.tanh : (⟨S65536x8, .f32⟩ : BufTy).Contents (Elt F) → (⟨S65536x8, .f32⟩ : BufTy).Contents (Elt F)) ]

-- the calls unfold and the sequencing re-associates by computation: one step per statement
set_option maxRecDepth 8192 in
set_option maxHeartbeats 4000000 in
/-- @main is that straight line: the rectifier functions' bodies unfolded at their calls, both sides are one chain of
    steps once sequencing is re-associated — all of it by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub ..⟩

set_option maxRecDepth 8192 in
set_option maxHeartbeats 8000000 in
/-- From any memory with zero counters, every weakly fair execution of @main terminates with the result buffer at the
    last stage of the staged term of the arguments' launch contents, and the fourteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51) = RefTerm.t_v51 ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v51).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.ReferenceIdeal.RefRun

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«117417_j28552942584470_2_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.LibFloatWords.lean ====
import Idealize.ShloMosaic.PureOps.Ideal

/-! # Float bit patterns as the extended reals they denote

A 32-bit pattern is read as an IEEE single: sign, eight exponent bits, twenty-three fraction bits. The pattern
`0x3F800000` has sign 0, biased exponent 127 and fraction 0, so it denotes `2 ^ 0 · 1 = 1`. The pattern is
unfolded once here so that its users cite the equation and never open the decoding themselves. -/

noncomputable section

namespace Cert.Lib.FloatWords

open Idealize.ShloMosaic

/-- The single-precision pattern of `1.0` denotes the extended real `1`. -/
theorem ofBits_one_f32 : Ideal.ofBits .f32 0x3F800000#32 = (1 : EReal) := by
  simp [Ideal.ofBits, Ideal.ieee, -EReal.coe_mul]
  norm_num

end Cert.Lib.FloatWords

end
-- ==== Proof.RefFeat.lean ====
/-
  The reference's gate and gated features, read at an index.

  The gate at row b, position d is 1 / (1 + exp(−(g·Wc + bc))): the plain matrix product of the goal row with the gate
  weights, the bias added, negated, exponentiated, one added and one divided by the result, the ones being the
  single-precision pattern of 1. That is the logistic of the dense layer.

  The features of object n in row b are fifty columns of the observation row: twenty body columns (two slices of ten,
  columns 0..9 and 130..139, laid side by side and copied to every object) followed by thirty object columns. The object
  columns are a gather of columns by a constant 8 × 30 table of column numbers; a negative entry would be wrapped by
  adding 260, but every entry is a column number below 260 (entry (n, e) is 10 + 15 n + e for e < 15 and 125 + 15 n + e
  otherwise), so the wrap returns the entry, the signed reading is the entry, and keeping the start inside the 260 columns
  changes nothing. The table fact is one decided statement over its 240 entries.

  The gated feature is the product of the feature and the gate copied to every object.
-/
import proofs.«117417_j28552942584470_2_alg».proof.Proof.RefTerm
import proofs.«117417_j28552942584470_2_alg».proof.Proof.Net
import proofs.«117417_j28552942584470_2_alg».proof.Proof.LibPlainDot
import proofs.«117417_j28552942584470_2_alg».proof.Proof.LibFloatWords
import Idealize.ShloMosaic.Lib.IdealHost
import Idealize.ShloMosaic.Lib.Pipeline.Value

noncomputable section

open scoped BigOperators

namespace Cert.ReferenceIdeal.RefFeat

open Idealize.ShloMosaic Idealize.ShloMosaic.ValueIdx Cert.ReferenceIdeal Cert.DeepSet
open Cert.ReferenceIdeal.Facts₀ Cert.ReferenceIdeal.Facts

section

variable [Cert.ReferenceIdeal.Facts]

/-- The first dense layer's dimension numbers are the plain rows-by-columns ones. -/
theorem dot_eq_plain : dot_S65536x100_S100x50_S65536x50_1_0_0_1_n_n = DotDims.plain 65536 100 50 := rfl

theorem t_v0_apply (Z : RefTerm.Args) (b : Fin 65536) (d : Fin 50) :
    RefTerm.t_v0 Z (ix2 b d) = ∑ k : Fin 100, Z.a1 (ix2 b k) * Z.a2 (ix2 k d) := by
  unfold RefTerm.t_v0
  rw [dot_eq_plain]
  exact PlainDot.dotGeneral_apply_entry none .single Z.a1 Z.a2 b d

theorem t_v1_apply (Z : RefTerm.Args) (z : Fin 1) (d : Fin 50) : RefTerm.t_v1 Z (ix2 z d) = Z.a3 (ix1 d) := by
  unfold RefTerm.t_v1
  refine broadcastInDim_apply _ _ _ _ (ix1 d) fun a => ?_
  match a with
  | ⟨0, _⟩ => rfl

theorem t_v2_apply (Z : RefTerm.Args) (b : Fin 65536) (d : Fin 50) : RefTerm.t_v2 Z (ix2 b d) = Z.a3 (ix1 d) := by
  unfold RefTerm.t_v2
  refine (broadcastInDim_apply _ _ _ _ (ix2 (0 : Fin 1) d) fun a => ?_).trans (t_v1_apply Z 0 d)
  match a with
  | ⟨0, _⟩ => rfl
  | ⟨1, _⟩ => rfl

theorem t_v3_apply (Z : RefTerm.Args) (b : Fin 65536) (d : Fin 50) :
    RefTerm.t_v3 Z (ix2 b d) = (∑ k : Fin 100, Z.a1 (ix2 b k) * Z.a2 (ix2 k d)) + Z.a3 (ix1 d) := by
  unfold RefTerm.t_v3
  rw [addf_apply, t_v0_apply, t_v2_apply]

theorem t_v5_apply (Z : RefTerm.Args) (b : Fin 65536) (d : Fin 50) :
    RefTerm.t_v5 Z (ix2 b d) = Ideal.exp (-((∑ k : Fin 100, Z.a1 (ix2 b k) * Z.a2 (ix2 k d)) + Z.a3 (ix1 d))) := by
  unfold RefTerm.t_v5 RefTerm.t_v4
  show Ideal.exp (-(RefTerm.t_v3 Z (ix2 b d))) = _
  rw [t_v3_apply]

theorem t_v6_apply (Z : RefTerm.Args) (i : S65536x50.Idx) : RefTerm.t_v6 Z i = 1 := by
  unfold RefTerm.t_v6 RefTerm.t_cst
  rw [broadcastInDim_scalar_apply, constant_apply]
  exact Cert.Lib.FloatWords.ofBits_one_f32

theorem t_v8_apply (Z : RefTerm.Args) (i : S65536x50.Idx) : RefTerm.t_v8 Z i = 1 := by
  unfold RefTerm.t_v8 RefTerm.t_cst_0
  rw [broadcastInDim_scalar_apply, constant_apply]
  exact Cert.Lib.FloatWords.ofBits_one_f32

/-- The gate at row `b`, position `d`: the logistic of the first dense layer of the goal row. -/
theorem t_v9_apply (Z : RefTerm.Args) (b : Fin 65536) (d : Fin 50) :
    RefTerm.t_v9 Z (ix2 b d) = Cert.DeepSet.gate (rowOf Z.a1 b) (mat Z.a2) (vec Z.a3) d := by
  unfold RefTerm.t_v9
  rw [hostDivf_apply, t_v8_apply]
  unfold RefTerm.t_v7
  rw [addf_apply, t_v6_apply, t_v5_apply]
  rfl

/-- The first slice: columns 0..9 of the observations. -/
theorem t_v10_apply (Z : RefTerm.Args) (b : Fin 65536) (c : Fin 10) :
    RefTerm.t_v10 Z (ix2 b c) = Z.a0 (ix2 b (⟨c.val, by omega⟩ : Fin 260)) := by
  unfold RefTerm.t_v10
  refine extractStridedSlice_apply _ _ _ _ (ix2 b (⟨c.val, by omega⟩ : Fin 260)) fun a => ?_
  match a with
  | ⟨0, _⟩ => show b.val = 0 + b.val; omega
  | ⟨1, _⟩ => show c.val = 0 + c.val; omega

/-- The second slice: columns 130..139 of the observations. -/
theorem t_v11_apply (Z : RefTerm.Args) (b : Fin 65536) (c : Fin 10) :
    RefTerm.t_v11 Z (ix2 b c) = Z.a0 (ix2 b (⟨130 + c.val, by omega⟩ : Fin 260)) := by
  unfold RefTerm.t_v11
  refine extractStridedSlice_apply _ _ _ _ (ix2 b (⟨130 + c.val, by omega⟩ : Fin 260)) fun a => ?_
  match a with
  | ⟨0, _⟩ => show b.val = 0 + b.val; omega
  | ⟨1, _⟩ => rfl

/-- The body's twenty columns: the two slices side by side. -/
theorem t_v12_apply (Z : RefTerm.Args) (b : Fin 65536) (d : Fin 20) :
    RefTerm.t_v12 Z (ix2 b d) = Z.a0 (ix2 b (bodyCol d)) := by
  unfold RefTerm.t_v12
  by_cases h : d.val < 10
  · refine (concatenate_pair_apply_left (t := S65536x20) (s₁ := S65536x10) (s₂ := S65536x10) 1 _ _ _ (ix2 b d) rfl
      (ix2 b (⟨d.val, h⟩ : Fin 10)) fun a => ?_).trans ?_
    · match a with
      | ⟨0, _⟩ => rfl
      | ⟨1, _⟩ => rfl
    · rw [t_v10_apply]
      unfold bodyCol
      rw [dif_pos h]
  · refine (concatenate_pair_apply_right (t := S65536x20) (s₁ := S65536x10) (s₂ := S65536x10) 1 _ _ _ (ix2 b d) rfl rfl
      (ix2 b (⟨d.val - 10, by omega⟩ : Fin 10)) (fun a ha => ?_) ?_).trans ?_
    · match a with
      | ⟨0, _⟩ => rfl
      | ⟨1, _⟩ => exact absurd rfl ha
    · show d.val - 10 + 10 = d.val
      omega
    · rw [t_v11_apply]
      unfold bodyCol
      rw [dif_neg h]
      refine congrArg Z.a0 (congrArg (ix2 b) (Fin.ext ?_))
      show 130 + (d.val - 10) = 120 + d.val
      omega

theorem t_v20_apply (Z : RefTerm.Args) (b : Fin 65536) (z : Fin 1) (d : Fin 20) :
    RefTerm.t_v20 Z (ix3 b z d) = RefTerm.t_v12 Z (ix2 b d) := by
  unfold RefTerm.t_v20
  refine broadcastInDim_apply _ _ _ _ (ix2 b d) fun a => ?_
  match a with
  | ⟨0, _⟩ => rfl
  | ⟨1, _⟩ => rfl

/-- The body's columns, copied to each of the eight objects. -/
theorem t_v21_apply (Z : RefTerm.Args) (b : Fin 65536) (n : Fin 8) (d : Fin 20) :
    RefTerm.t_v21 Z (ix3 b n d) = Z.a0 (ix2 b (bodyCol d)) := by
  unfold RefTerm.t_v21
  refine (broadcastInDim_apply _ _ _ _ (ix3 b (0 : Fin 1) d) fun a => ?_).trans ((t_v20_apply Z b 0 d).trans (t_v12_apply Z b d))
  match a with
  | ⟨0, _⟩ => rfl
  | ⟨1, _⟩ => rfl
  | ⟨2, _⟩ => rfl

theorem t_v23_apply (Z : RefTerm.Args) (b : Fin 65536) (z : Fin 1) (d : Fin 50) :
    RefTerm.t_v23 Z (ix3 b z d) = RefTerm.t_v9 Z (ix2 b d) := by
  unfold RefTerm.t_v23
  refine broadcastInDim_apply _ _ _ _ (ix2 b d) fun a => ?_
  match a with
  | ⟨0, _⟩ => rfl
  | ⟨1, _⟩ => rfl

/-- The gate, copied to each of the eight objects. -/
theorem t_v24_apply (Z : RefTerm.Args) (b : Fin 65536) (n : Fin 8) (d : Fin 50) :
    RefTerm.t_v24 Z (ix3 b n d) = RefTerm.t_v9 Z (ix2 b d) := by
  unfold RefTerm.t_v24
  refine (broadcastInDim_apply _ _ _ _ (ix3 b (0 : Fin 1) d) fun a => ?_).trans (t_v23_apply Z b 0 d)
  match a with
  | ⟨0, _⟩ => rfl
  | ⟨1, _⟩ => rfl
  | ⟨2, _⟩ => rfl

/-- The column named at flat position `q` of the 8×30 table, after the wrap of a negative entry by 260. -/
def wrapped (q : Fin 240) : BitVec 32 :=
  Scalar.select (IntOp.cmpi .slt (lit0 q) 0#32) (IntOp.addi (lit0 q) 260#32) (lit0 q)

/-- Every entry of the table is a column below 260: entry `30 n + e` is 10+15n+e for e < 15 and 125+15n+e otherwise,
    and no entry is negative, so the wrap leaves it alone. -/
theorem wrapped_eq : ∀ q : Fin 240, (wrapped q).toInt.toNat
    = if q.val % 30 < 15 then 10 + 15 * (q.val / 30) + q.val % 30 else 125 + 15 * (q.val / 30) + q.val % 30 := by
  decide +kernel

local notation "GD" => gather_S65536x260_S8x30x1_S65536x8x30_0_1_n_n_1_2_655361

/-- The gather of columns read at (b, n, e): row `b` of the operand at the column the start index at (n, e) names,
    read signed and kept inside the 260 columns. -/
theorem gather_apply {α : Type} {w : Nat} (x : S65536x260.Idx → α) (idx : IVec S8x30x1 w)
    (b : Fin 65536) (n : Fin 8) (e : Fin 30) :
    Host.gather GD x idx (ix3 b n e)
      = x (ix2 b (⟨min (idx (ix3 n e (0 : Fin 1))).toInt.toNat 259, by omega⟩ : Fin 260)) := by
  have h0s : (0 : Fin 2) ∉ GatherDims.startIndexMap GD := (show (0 : Fin 2) ∉ ([1] : List (Fin 2)) by decide)
  have h0k : (0 : Fin 2) ∈ GatherDims.sKept GD := (show (0 : Fin 2) ∈ S65536x260.kept (([1] : List (Fin 2)) ++ []) by decide)
  have h1k : (1 : Fin 2) ∉ GatherDims.sKept GD := (show (1 : Fin 2) ∉ S65536x260.kept (([1] : List (Fin 2)) ++ []) by decide)
  unfold Host.gather
  refine congrArg x (funext fun a => Fin.ext ?_)
  match a with
  | ⟨0, _⟩ =>
    show GatherDims.start GD (ix3 b n e) idx 0 + GatherDims.batchCoord GD (ix3 b n e) 0
      + GatherDims.offCoord GD (ix3 b n e) 0 = b.val
    rw [GatherDims.batchCoord_eq_zero _ _ _ List.not_mem_nil]
    have hs : GatherDims.start GD (ix3 b n e) idx 0 = 0 := by
      unfold GatherDims.start
      exact dif_neg h0s
    rw [hs]
    unfold GatherDims.offCoord
    rw [dif_pos h0k]
    simp only [Nat.zero_add]
    rfl
  | ⟨1, _⟩ =>
    show GatherDims.start GD (ix3 b n e) idx 1 + GatherDims.batchCoord GD (ix3 b n e) 1
      + GatherDims.offCoord GD (ix3 b n e) 1 = min (idx (ix3 n e (0 : Fin 1))).toInt.toNat 259
    rw [GatherDims.batchCoord_eq_zero _ _ _ List.not_mem_nil, GatherDims.offCoord_eq_zero _ _ _ h1k]
    simp only [Nat.add_zero]
    unfold GatherDims.start
    rw [dif_pos (show (1 : Fin 2) ∈ GatherDims.startIndexMap GD from List.mem_singleton.mpr rfl)]
    have hsi : GatherDims.siIdx GD (ix3 b n e) ⟨List.idxOf (1 : Fin 2) (GatherDims.startIndexMap GD),
        List.idxOf_lt_length_iff.2 (List.mem_singleton.mpr rfl)⟩ = ix3 n e (0 : Fin 1) := by
      funext c; refine Fin.ext ?_
      match c with
      | ⟨0, _⟩ => rfl
      | ⟨1, _⟩ => rfl
      | ⟨2, _⟩ => rfl
    rw [hsi]
    rfl

/-- The column of the observations that object `n`'s feature `e` is read from, as a number. -/
theorem objCol_val (n : Fin 8) (e : Fin 30) :
    (objCol n e).val = if e.val < 15 then 10 + 15 * n.val + e.val else 125 + 15 * n.val + e.val := by
  unfold objCol
  split <;> rfl

/-- The index array after the wrap, at (n, e): the table's entry at flat position 30 n + e, wrapped. -/
theorem t_v17_apply (Z : RefTerm.Args) (n : Fin 8) (e : Fin 30) :
    RefTerm.t_v17 Z (ix2 n e) = wrapped (⟨n.val * 30 + e.val, by omega⟩ : Fin 240) := by
  have hq : (S8x30.rowMajor (ix2 n e) : Fin 240) = (⟨n.val * 30 + e.val, by omega⟩ : Fin 240) :=
    Fin.ext (Shape.rowMajor_val_two (ix2 n e))
  exact (congrArg wrapped hq : wrapped (S8x30.rowMajor (ix2 n e)) = _)

theorem t_v18_apply (Z : RefTerm.Args) (n : Fin 8) (e : Fin 30) (z : Fin 1) :
    RefTerm.t_v18 Z (ix3 n e z) = RefTerm.t_v17 Z (ix2 n e) := by
  unfold RefTerm.t_v18
  refine broadcastInDim_apply _ _ _ _ (ix2 n e) fun a => ?_
  match a with
  | ⟨0, _⟩ => rfl
  | ⟨1, _⟩ => rfl

/-- The start index at (n, e), read signed, is the column of object `n`'s feature `e`. -/
theorem t_v18_col (Z : RefTerm.Args) (n : Fin 8) (e : Fin 30) :
    (RefTerm.t_v18 Z (ix3 n e (0 : Fin 1))).toInt.toNat = (objCol n e).val := by
  rw [t_v18_apply, t_v17_apply, wrapped_eq, objCol_val]
  have hn := n.isLt
  have he := e.isLt
  show (if (n.val * 30 + e.val) % 30 < 15 then 10 + 15 * ((n.val * 30 + e.val) / 30) + (n.val * 30 + e.val) % 30
      else 125 + 15 * ((n.val * 30 + e.val) / 30) + (n.val * 30 + e.val) % 30) = _
  have h1 : (n.val * 30 + e.val) % 30 = e.val := by omega
  have h2 : (n.val * 30 + e.val) / 30 = n.val := by omega
  rw [h1, h2]

/-- The gathered object features at (b, n, e): row `b` of the observations at object `n`'s column for feature `e`. -/
theorem t_v19_apply (Z : RefTerm.Args) (b : Fin 65536) (n : Fin 8) (e : Fin 30) :
    RefTerm.t_v19 Z (ix3 b n e) = Z.a0 (ix2 b (objCol n e)) := by
  unfold RefTerm.t_v19
  rw [gather_apply]
  refine congrArg Z.a0 (congrArg (ix2 b) (Fin.ext ?_))
  show min (RefTerm.t_v18 Z (ix3 n e (0 : Fin 1))).toInt.toNat 259 = (objCol n e).val
  rw [t_v18_col]
  have := (objCol n e).isLt
  omega

/-- The fifty features of object `n` in row `b`: the body's twenty, then the object's thirty. -/
theorem t_v22_apply (Z : RefTerm.Args) (b : Fin 65536) (n : Fin 8) (d : Fin 50) :
    RefTerm.t_v22 Z (ix3 b n d) = Cert.DeepSet.feat (rowOf Z.a0 b) n d := by
  unfold RefTerm.t_v22
  by_cases h : d.val < 20
  · refine (concatenate_pair_apply_left (t := S65536x8x50) (s₁ := S65536x8x20) (s₂ := S65536x8x30) 2 _ _ _ (ix3 b n d) rfl
      (ix3 b n (⟨d.val, h⟩ : Fin 20)) fun a => ?_).trans ?_
    · match a with
      | ⟨0, _⟩ => rfl
      | ⟨1, _⟩ => rfl
      | ⟨2, _⟩ => rfl
    · rw [t_v21_apply]
      unfold Cert.DeepSet.feat
      rw [dif_pos h]
      rfl
  · refine (concatenate_pair_apply_right (t := S65536x8x50) (s₁ := S65536x8x20) (s₂ := S65536x8x30) 2 _ _ _ (ix3 b n d) rfl rfl
      (ix3 b n (⟨d.val - 20, by omega⟩ : Fin 30)) (fun a ha => ?_) ?_).trans ?_
    · match a with
      | ⟨0, _⟩ => rfl
      | ⟨1, _⟩ => rfl
      | ⟨2, _⟩ => exact absurd rfl ha
    · show d.val - 20 + 20 = d.val
      omega
    · rw [t_v19_apply]
      unfold Cert.DeepSet.feat
      rw [dif_neg h]
      rfl

end

/-- The gated features at (b, n, d): feature `d` of object `n` in row `b`, times the gate of row `b` at `d`. -/
theorem t_v25_apply [Cert.ReferenceIdeal.Facts] (Z : RefTerm.Args) (b : Fin 65536) (n : Fin 8) (d : Fin 50) :
    RefTerm.t_v25 Z (ix3 b n d)
      = Cert.DeepSet.feat (Cert.DeepSet.rowOf Z.a0 b) n d
        * Cert.DeepSet.gate (Cert.DeepSet.rowOf Z.a1 b) (Cert.DeepSet.mat Z.a2) (Cert.DeepSet.vec Z.a3) d := by
  unfold RefTerm.t_v25
  rw [mulf_apply, t_v22_apply, t_v24_apply, t_v9_apply]

end Cert.ReferenceIdeal.RefFeat

end
-- ==== Proof.LibHostDense.lean ====
/-
  A host program's dense layer over a stack of rows, read at one entry.

  A product of a stack `A` of shape `[B, N, k]` with a matrix `W` of shape `[k, n]`, contracting the last axis of
  the stack with the first axis of the matrix, holds at entry `(b, o, h)` the sum over the contracted position `c` of
  `A[b,o,c] · W[c,h]`: the contraction's one-axis index set is re-indexed by its coordinate, a free axis of an operand
  reads the output's coordinate and the contracted axis reads `c`. A bias vector of length `n` laid out as `[1, 1, n]`
  and repeated over `[B, N, n]` (or as `[1, n]` and repeated over `[B, n]`) holds `v c` at every entry of column
  `c`. The host's sum of a `[B, N, n]` stack over its middle axis, started from the first element of an initial array,
  holds at `(b, c)` that element plus the sum over `o` of the stack at `(b, o, c)`.
-/
import Idealize.ShloMosaic.Lib.KernelVsHost
import Idealize.ShloMosaic.Lib.IdealHost

noncomputable section

open scoped BigOperators

namespace Cert.Lib.HostDense

open Idealize.ShloMosaic Idealize.ShloMosaic.ValueIdx

variable {B N k n : Nat}

/-- The dimension numbers of a `[B, N, k]` by `[k, n]` product that contracts the stack's last axis with the
    matrix's first axis, no batch axis. -/
abbrev rowsDims (w : DotDims.WF ⟨3, ![B, N, k]⟩ ⟨2, ![k, n]⟩ ⟨3, ![B, N, n]⟩ [2] [0] [0, 1] [1] [] []) :
    DotDims ⟨3, ![B, N, k]⟩ ⟨2, ![k, n]⟩ ⟨3, ![B, N, n]⟩ := ⟨[2], [0], [0, 1], [1], [], [], w⟩

/-- **A stack of rows times a matrix at an entry**: `∑ c, A[b,o,c] · W[c,h]`, at the ideal values, whatever the
    operands' formats and the precision key. -/
theorem dotGeneral_rows_apply {φ₁ φ₂ : FTy}
    (w : DotDims.WF ⟨3, ![B, N, k]⟩ ⟨2, ![k, n]⟩ ⟨3, ![B, N, n]⟩ [2] [0] [0, 1] [1] [] [])
    (prec : Option ContractPrecision) (A : FVec Ideal ⟨3, ![B, N, k]⟩ φ₁) (W : FVec Ideal ⟨2, ![k, n]⟩ φ₂)
    (b : Fin B) (o : Fin N) (h : Fin n) :
    Host.dotGeneral (rowsDims w) prec A W (ix3 b o h) = ∑ c : Fin k, A (ix3 b o c) * W (ix2 c h) := by
  show FloatOps.dotGeneral _ prec _ A W (ix3 b o h) = _
  rw [Ideal.dotGeneral_apply, ← Equiv.sum_comp (contrEquiv1 (rowsDims w) k rfl rfl).symm]
  refine Finset.sum_congr rfl fun c _ => ?_
  have hc := contrEquiv1_symm_val (rowsDims w) k rfl rfl c
  have el : (rowsDims w).lhsIdx (ix3 b o h) ((contrEquiv1 (rowsDims w) k rfl rfl).symm c) = ix3 b o c := by
    funext ax; apply Fin.ext
    match ax with
    | ⟨0, _⟩ => simp [DotDims.lhsIdx]; rfl
    | ⟨1, _⟩ => simp [DotDims.lhsIdx]; rfl
    | ⟨2, _⟩ => exact ((rowsDims w).lhsIdx_val_of_single rfl _ _).trans hc
  have er : (rowsDims w).rhsIdx (ix3 b o h) ((contrEquiv1 (rowsDims w) k rfl rfl).symm c) = ix2 c h := by
    funext ax; apply Fin.ext
    match ax with
    | ⟨0, _⟩ => exact ((rowsDims w).rhsIdx_val_of_single rfl _ _).trans hc
    | ⟨1, _⟩ => simp [DotDims.rhsIdx]; rfl
  rw [el, er]

section Bias
variable {α : Type}

/-- A bias vector laid out as `[1, 1, n]` and repeated over `[B, N, n]`, at an entry. -/
theorem bias3_apply (v : (⟨1, ![n]⟩ : Shape).Idx → α)
    (h1 : (⟨1, ![n]⟩ : Shape).BroadcastsInDim ⟨3, ![1, 1, n]⟩ ![2])
    (h2 : (⟨3, ![1, 1, n]⟩ : Shape).BroadcastsInDim ⟨3, ![B, N, n]⟩ ![0, 1, 2]) (b : Fin B) (o : Fin N) (c : Fin n) :
    broadcastInDim ⟨3, ![B, N, n]⟩ ![0, 1, 2] h2 (broadcastInDim ⟨3, ![1, 1, n]⟩ ![2] h1 v) (ix3 b o c) = v (ix1 c) := by
  refine (broadcastInDim_apply ![0, 1, 2] h2 _ (ix3 b o c) (ix3 (0 : Fin 1) (0 : Fin 1) c) ?_).trans
    (broadcastInDim_apply ![2] h1 v (ix3 (0 : Fin 1) (0 : Fin 1) c) (ix1 c) ?_)
  · intro a
    match a with
    | ⟨0, _⟩ => show (0 : ℕ) = if (1 : ℕ) = 1 then 0 else _; simp
    | ⟨1, _⟩ => show (0 : ℕ) = if (1 : ℕ) = 1 then 0 else _; simp
    | ⟨2, _⟩ =>
      show c.val = if n = 1 then 0 else c.val
      split_ifs with hn
      · have := c.isLt; omega
      · rfl
  · intro a
    match a with
    | ⟨0, _⟩ =>
      show c.val = if n = 1 then 0 else c.val
      split_ifs with hn
      · have := c.isLt; omega
      · rfl

/-- A bias vector laid out as `[1, n]` and repeated over `[B, n]`, at an entry. -/
theorem bias2_apply (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![B, n]⟩ ![0, 1]) (b : Fin B) (c : Fin n) :
    broadcastInDim ⟨2, ![B, n]⟩ ![0, 1] h2 (broadcastInDim ⟨2, ![1, n]⟩ ![1] h1 v) (ix2 b c) = v (ix1 c) := by
  refine (broadcastInDim_oneRow_apply h2 _ b c).trans
    (broadcastInDim_apply ![1] h1 v (ix2 (0 : Fin 1) c) (ix1 c) ?_)
  intro a
  match a with
  | ⟨0, _⟩ =>
    show c.val = if n = 1 then 0 else c.val
    split_ifs with hn
    · have := c.isLt; omega
    · rfl

end Bias

/-- **The host's sum over the middle axis at an entry**: the initial array's first element plus `∑ o, x[b,o,c]`, at
    the ideal values. -/
theorem hostReduceAdd_mid_apply {φ : FTy} {u : Shape} (x : FVec Ideal ⟨3, ![B, N, n]⟩ φ) (init : u.Idx → Ideal φ)
    (h' : (⟨3, ![B, N, n]⟩ : Shape).ReducesTo [1] ⟨2, ![B, n]⟩) (hu : 0 < u.numel) (b : Fin B) (c : Fin n) :
    Host.reduceAdd x init h' hu (ix2 b c) = init (Shape.Idx.first hu) + ∑ o : Fin N, x (ix3 b o c) := by
  have h : (⟨3, ![B, N, n]⟩ : Shape).Reduces [1] ⟨2, ![B, n]⟩ := ⟨h'.1, Nat.two_pos, h'.2⟩
  show Ideal.hostReduceAdd h' x _ (ix2 b c) = _
  rw [Ideal.hostReduceAdd_single h' h]
  refine congrArg (_ + ·) (Finset.sum_congr rfl fun o _ => ?_)
  refine congrArg x (funext fun a => Fin.ext ?_)
  match a with
  | ⟨0, _⟩ => rfl
  | ⟨1, _⟩ => rfl
  | ⟨2, _⟩ => rfl

end Cert.Lib.HostDense

end
-- ==== Proof.RefHead.lean ====
/-
  The reference's dense layers read at an entry, given the gated features.

  After the gated features (one 50-vector per batch row and object) the reference applies, per row and object, a dense
  layer of 50 → 256 and one of 256 → 400, each followed by a rectifier whose floor is the single-precision zero word's
  value; adds the eight objects' 400-vectors from that same starting value; and applies to the pooled 400-vector three
  more dense layers, 400 → 256 and 256 → 256 with rectifiers and 256 → 8 through the hyperbolic tangent. Each stage
  is read at an index: a product with a weight matrix is the sum over the contracted position, a bias is a vector
  repeated along the other axes, a rectifier is a maximum with the floor, the pooling is the starting value plus the
  sum over the object axis. Chained, the last stage at `(b, j)` is output `j` of the network on row `b`.
-/
import proofs.«117417_j28552942584470_2_alg».proof.Proof.RefTerm
import proofs.«117417_j28552942584470_2_alg».proof.Proof.Net
import proofs.«117417_j28552942584470_2_alg».proof.Proof.LibPlainDot
import proofs.«117417_j28552942584470_2_alg».proof.Proof.LibHostDense

noncomputable section

open scoped BigOperators

namespace Cert.ReferenceIdeal.RefHead

open Idealize.ShloMosaic Idealize.ShloMosaic.ValueIdx Idealize.ShloMosaic.PlainDot
open Cert.ReferenceIdeal Cert.ReferenceIdeal.RefTerm Cert.DeepSet Cert.Lib.HostDense
open Cert.ReferenceIdeal.Facts₀ Cert.ReferenceIdeal.Facts

section Stages
variable [Cert.ReferenceIdeal.Facts]

/-! ## The per-object layers: 50 → 256 → 400 -/

/-- The first layer's product: the gated features against the 50 × 256 weights. -/
theorem t_v26_apply (Z : Args) (b : Fin 65536) (n : Fin 8) (h : Fin 256) :
    t_v26 Z (ix3 b n h) = ∑ d : Fin 50, t_v25 Z (ix3 b n d) * Z.a4 (ix2 d h) :=
  dotGeneral_rows_apply dot_S65536x8x50_S50x256_S65536x8x256_2_0_01_1_n_n_wf none (t_v25 Z) Z.a4 b n h

/-- The first layer's bias, repeated over rows and objects. -/
theorem t_v28_apply (Z : Args) (b : Fin 65536) (n : Fin 8) (h : Fin 256) : t_v28 Z (ix3 b n h) = Z.a5 (ix1 h) :=
  bias3_apply Z.a5 bcast_S256_S1x1x256_2 bcast_S1x1x256_S65536x8x256_0_1_2 b n h

/-- The first rectifier's floor. -/
theorem t_call0_v0_apply (Z : Args) (i : S65536x8x256.Idx) : t_call0_v0 Z i = z32 :=
  broadcastInDim_scalar_apply bcast_S_S65536x8x256 (t_call0_cst Z) i

/-- The first hidden layer at an entry. -/
theorem t_v30_apply (Z : Args) (b : Fin 65536) (n : Fin 8) (h : Fin 256) :
    t_v30 Z (ix3 b n h) = max ((∑ d : Fin 50, t_v25 Z (ix3 b n d) * Z.a4 (ix2 d h)) + Z.a5 (ix1 h)) z32 := by
  show max (t_v26 Z (ix3 b n h) + t_v28 Z (ix3 b n h)) (t_call0_v0 Z (ix3 b n h)) = _
  rw [t_v26_apply, t_v28_apply, t_call0_v0_apply]

/-- The second layer's product: the first hidden layer against the 256 × 400 weights. -/
theorem t_v31_apply (Z : Args) (b : Fin 65536) (n : Fin 8) (k : Fin 400) :
    t_v31 Z (ix3 b n k) = ∑ h : Fin 256, t_v30 Z (ix3 b n h) * Z.a6 (ix2 h k) :=
  dotGeneral_rows_apply dot_S65536x8x256_S256x400_S65536x8x400_2_0_01_1_n_n_wf none (t_v30 Z) Z.a6 b n k

/-- The second layer's bias, repeated over rows and objects. -/
theorem t_v33_apply (Z : Args) (b : Fin 65536) (n : Fin 8) (k : Fin 400) : t_v33 Z (ix3 b n k) = Z.a7 (ix1 k) :=
  bias3_apply Z.a7 bcast_S400_S1x1x400_2 bcast_S1x1x400_S65536x8x400_0_1_2 b n k

/-- The second rectifier's floor. -/
theorem t_call1_v0_apply (Z : Args) (i : S65536x8x400.Idx) : t_call1_v0 Z i = z32 :=
  broadcastInDim_scalar_apply bcast_S_S65536x8x400 (t_call1_cst Z) i

/-- The second hidden layer at an entry. -/
theorem t_v35_apply (Z : Args) (b : Fin 65536) (n : Fin 8) (k : Fin 400) :
    t_v35 Z (ix3 b n k) = max ((∑ h : Fin 256, t_v30 Z (ix3 b n h) * Z.a6 (ix2 h k)) + Z.a7 (ix1 k)) z32 := by
  show max (t_v31 Z (ix3 b n k) + t_v33 Z (ix3 b n k)) (t_call1_v0 Z (ix3 b n k)) = _
  rw [t_v31_apply, t_v33_apply, t_call1_v0_apply]

/-! ## The pooling over the eight objects -/

/-- The pooled vector at an entry: the starting value plus the eight objects' entries. -/
theorem t_v36_apply (Z : Args) (b : Fin 65536) (k : Fin 400) :
    t_v36 Z (ix2 b k) = z32 + ∑ n : Fin 8, t_v35 Z (ix3 b n k) :=
  hostReduceAdd_mid_apply (t_v35 Z) (t_cst_3 Z) reducesTo_S65536x8x400_S65536x400_d1 h_S_ b k

/-! ## The three layers after the pooling: 400 → 256 → 256 → 8 -/

/-- The third layer's product. -/
theorem t_v37_apply (Z : Args) (b : Fin 65536) (h : Fin 256) :
    t_v37 Z (ix2 b h) = ∑ k : Fin 400, t_v36 Z (ix2 b k) * Z.a8 (ix2 k h) :=
  dotGeneral_apply_entry none _ (t_v36 Z) Z.a8 b h

/-- The third layer's bias, repeated over rows. -/
theorem t_v39_apply (Z : Args) (b : Fin 65536) (h : Fin 256) : t_v39 Z (ix2 b h) = Z.a9 (ix1 h) :=
  bias2_apply Z.a9 bcast_S256_S1x256_1 bcast_S1x256_S65536x256_0_1 b h

/-- The third rectifier's floor. -/
theorem t_call2_v0_apply (Z : Args) (i : S65536x256.Idx) : t_call2_v0 Z i = z32 :=
  broadcastInDim_scalar_apply bcast_S_S65536x256 (t_call2_cst Z) i

/-- The third hidden layer at an entry. -/
theorem t_v41_apply (Z : Args) (b : Fin 65536) (h : Fin 256) :
    t_v41 Z (ix2 b h) = max ((∑ k : Fin 400, t_v36 Z (ix2 b k) * Z.a8 (ix2 k h)) + Z.a9 (ix1 h)) z32 := by
  show max (t_v37 Z (ix2 b h) + t_v39 Z (ix2 b h)) (t_call2_v0 Z (ix2 b h)) = _
  rw [t_v37_apply, t_v39_apply, t_call2_v0_apply]

/-- The fourth layer's product. -/
theorem t_v42_apply (Z : Args) (b : Fin 65536) (h : Fin 256) :
    t_v42 Z (ix2 b h) = ∑ h' : Fin 256, t_v41 Z (ix2 b h') * Z.a10 (ix2 h' h) :=
  dotGeneral_apply_entry none _ (t_v41 Z) Z.a10 b h

/-- The fourth layer's bias, repeated over rows. -/
theorem t_v44_apply (Z : Args) (b : Fin 65536) (h : Fin 256) : t_v44 Z (ix2 b h) = Z.a11 (ix1 h) :=
  bias2_apply Z.a11 bcast_S256_S1x256_1 bcast_S1x256_S65536x256_0_1 b h

/-- The fourth rectifier's floor. -/
theorem t_call3_v0_apply (Z : Args) (i : S65536x256.Idx) : t_call3_v0 Z i = z32 :=
  broadcastInDim_scalar_apply bcast_S_S65536x256 (t_call3_cst Z) i

/-- The fourth hidden layer at an entry. -/
theorem t_v46_apply (Z : Args) (b : Fin 65536) (h : Fin 256) :
    t_v46 Z (ix2 b h) = max ((∑ h' : Fin 256, t_v41 Z (ix2 b h') * Z.a10 (ix2 h' h)) + Z.a11 (ix1 h)) z32 := by
  show max (t_v42 Z (ix2 b h) + t_v44 Z (ix2 b h)) (t_call3_v0 Z (ix2 b h)) = _
  rw [t_v42_apply, t_v44_apply, t_call3_v0_apply]

/-- The last layer's product. -/
theorem t_v47_apply (Z : Args) (b : Fin 65536) (j : Fin 8) :
    t_v47 Z (ix2 b j) = ∑ h : Fin 256, t_v46 Z (ix2 b h) * Z.a12 (ix2 h j) :=
  dotGeneral_apply_entry none _ (t_v46 Z) Z.a12 b j

/-- The last layer's bias, repeated over rows. -/
theorem t_v49_apply (Z : Args) (b : Fin 65536) (j : Fin 8) : t_v49 Z (ix2 b j) = Z.a13 (ix1 j) :=
  bias2_apply Z.a13 bcast_S8_S1x8_1 bcast_S1x8_S65536x8_0_1 b j

/-- The result at an entry: the hyperbolic tangent of the last layer. -/
theorem t_v51_apply (Z : Args) (b : Fin 65536) (j : Fin 8) :
    t_v51 Z (ix2 b j) = Ideal.tanh ((∑ h : Fin 256, t_v46 Z (ix2 b h) * Z.a12 (ix2 h j)) + Z.a13 (ix1 j)) := by
  have e : t_v51 Z (ix2 b j) = FloatOps.hostUnary .tanh (t_v50 Z (ix2 b j)) := rfl
  have e' : t_v50 Z (ix2 b j) = t_v47 Z (ix2 b j) + t_v49 Z (ix2 b j) := rfl
  rw [e, Ideal.hostUnary_tanh_def, e', t_v47_apply, t_v49_apply]

/-! ## The stages as the network's layers -/

section Network
variable (Z : Args)
  (h25 : ∀ (b : Fin 65536) (n : Fin 8) (d : Fin 50), t_v25 Z (ix3 b n d)
    = feat (rowOf Z.a0 b) n d * gate (rowOf Z.a1 b) (mat Z.a2) (vec Z.a3) d)
include h25

/-- The first hidden layer is the network's, all 50 gated features contracted at once. -/
theorem t_v30_eq (b : Fin 65536) (n : Fin 8) (h : Fin 256) :
    t_v30 Z (ix3 b n h)
      = hidWhole (rowOf Z.a0 b) (rowOf Z.a1 b) (mat Z.a2) (vec Z.a3) (mat Z.a4) (vec Z.a5) n h := by
  rw [t_v30_apply]
  unfold hidWhole
  simp only [h25]
  rfl

/-- The second hidden layer is the network's over that first layer. -/
theorem t_v35_eq (b : Fin 65536) (n : Fin 8) (k : Fin 400) :
    t_v35 Z (ix3 b n k)
      = act (mat Z.a6) (vec Z.a7)
          (hidWhole (rowOf Z.a0 b) (rowOf Z.a1 b) (mat Z.a2) (vec Z.a3) (mat Z.a4) (vec Z.a5)) n k := by
  rw [t_v35_apply]
  unfold act
  simp only [t_v30_eq Z h25]
  rfl

/-- The pooled vector is the network's sum of the eight objects from the starting value. -/
theorem t_v36_eq (b : Fin 65536) (k : Fin 400) :
    t_v36 Z (ix2 b k)
      = poolSum (act (mat Z.a6) (vec Z.a7)
          (hidWhole (rowOf Z.a0 b) (rowOf Z.a1 b) (mat Z.a2) (vec Z.a3) (mat Z.a4) (vec Z.a5))) k := by
  rw [t_v36_apply]
  unfold poolSum
  simp only [t_v35_eq Z h25]

/-- The result at an entry is the network's output on that row. -/
theorem t_v51_eq_netAt (b : Fin 65536) (j : Fin 8) :
    t_v51 Z (ix2 b j)
      = netAt Z.a0 Z.a1 Z.a2 Z.a3 Z.a4 Z.a5 Z.a6 Z.a7 Z.a8 Z.a9 Z.a10 Z.a11 Z.a12 Z.a13 b j := by
  unfold netAt outWhole head
  rw [t_v51_apply]
  simp only [t_v46_apply, t_v41_apply, t_v36_eq Z h25]
  rfl

end Network

end Stages

/-- **The reference's result is the network's result array**, given that the gated features are the network's. -/
theorem t_v51_eq_of [Cert.ReferenceIdeal.Facts] (Z : RefTerm.Args)
    (h25 : ∀ (b : Fin 65536) (n : Fin 8) (d : Fin 50), RefTerm.t_v25 Z (ValueIdx.ix3 b n d)
      = Cert.DeepSet.feat (Cert.DeepSet.rowOf Z.a0 b) n d
        * Cert.DeepSet.gate (Cert.DeepSet.rowOf Z.a1 b) (Cert.DeepSet.mat Z.a2) (Cert.DeepSet.vec Z.a3) d) :
    RefTerm.t_v51 Z = Cert.DeepSet.net Z.a0 Z.a1 Z.a2 Z.a3 Z.a4 Z.a5 Z.a6 Z.a7 Z.a8 Z.a9 Z.a10 Z.a11 Z.a12 Z.a13 := by
  funext i
  obtain ⟨b, j, rfl⟩ : ∃ (b : Fin 65536) (j : Fin 8), i = ix2 b j := ⟨i 0, i 1, eq_ix2 i⟩
  rw [net_ix2]
  exact t_v51_eq_netAt Z h25 b j

end Cert.ReferenceIdeal.RefHead

end
-- ==== Proof.RefValue.lean ====
/-
  The reference's result array after its run is the network of the argument arrays: its run ends with the result at the
  composed term of its host operations; read at an index, the gate and the gated features give the first layer's input,
  and the dense layers, the sum over the objects and the last three layers give the network's first arrangement.
-/
import proofs.«117417_j28552942584470_2_alg».proof.Proof.RefRun
import proofs.«117417_j28552942584470_2_alg».proof.Proof.RefFeat
import proofs.«117417_j28552942584470_2_alg».proof.Proof.RefHead

noncomputable section

namespace Cert.ReferenceIdeal.RefValue

open Cert.ReferenceIdeal Idealize.ShloMosaic Idealize.ShloMosaic.TcCoe Idealize.SL.Sem

variable [Cert.ReferenceIdeal.Facts]

/-- The reference's run with its result named: the network of the argument arrays; the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51)
        = Cert.DeepSet.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono
    (fun r h c => ⟨(h c).1.trans (RefHead.t_v51_eq_of _ (fun b n d => RefFeat.t_v25_apply _ b n d)), (h c).2⟩)
    (RefRun.run m ρ)

end Cert.ReferenceIdeal.RefValue

end
-- ==== Proof.lean ====
/-
  The claim: the kernel runs, its idealization runs, the reference runs, each leaving its arguments unchanged; the
  idealization rewrote nothing; and on the extended reals the idealized kernel and the reference, run from memories
  that agree on the fourteen arguments, end with the same result array.

  Both programs compute, row by row, a small network: a logistic gate from the goal row multiplies, for each of eight
  objects, 50 features of the observation row (20 shared, 30 the object's own); two rectified dense layers per object,
  the eight results added, and three more dense layers through tanh. The kernel works on 64 blocks of 1024 rows, splits
  the first layer's contraction into the shared 20 positions and the object's 30, and adds the objects one after the
  other; the reference contracts all 50 positions at once and adds the objects in one sum. A sum over 50 positions is
  the sum over the first 20 plus the sum over the last 30, and a left-nested sum of eight terms is their sum: addition
  on the extended reals is commutative and associative, and nothing else is used, so the inputs' finiteness is not
  needed. Both result arrays are therefore the one function `Cert.DeepSet.net` of the argument arrays.
-/
import proofs.«117417_j28552942584470_2_alg».proof.Defs
import proofs.«117417_j28552942584470_2_alg».proof.Proof.Gen.Kernel
import proofs.«117417_j28552942584470_2_alg».proof.Proof.Gen.Kernel.Frame
import proofs.«117417_j28552942584470_2_alg».proof.Proof.Gen.KernelIdeal
import proofs.«117417_j28552942584470_2_alg».proof.Proof.Gen.KernelIdeal.Frame
import proofs.«117417_j28552942584470_2_alg».proof.Proof.Gen.KernelIdeal.Value
import proofs.«117417_j28552942584470_2_alg».proof.Proof.Gen.ReferenceIdeal
import proofs.«117417_j28552942584470_2_alg».proof.Proof.Gen.Pre_finite_inputs
import proofs.«117417_j28552942584470_2_alg».proof.Proof.KerArray
import proofs.«117417_j28552942584470_2_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Both runs end at the network of their argument arrays, and the argument arrays agree. -/
theorem algebraic : Cert.algebraic_KernelIdeal_ReferenceIdeal := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13⟩ := hagree c
  rw [e0, e1, e2, e3, e4, e5, e6, e7, e8, e9, e10, e11, e12, e13]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
